-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1024x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x512 : Shape := ⟨3, ![32, 8192, 512]⟩
abbrev S32x8192 : Shape := ⟨2, ![32, 8192]⟩
abbrev S64x512 : Shape := ⟨2, ![64, 512]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S32x8192x512 : S_.BroadcastsInDim S32x8192x512 (![] : Fin 0 → Fin S32x8192x512.rank)
  reducesTo_S32x8192x512_S_d0_1_2 : S32x8192x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_arg6 : FVec F S8x64 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x64 .f32 := Host.absf main_arg6
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  main_v28

def fn {F : FTy → Type} [FloatOps F] (main_arg0 : FVec F S32x8192x512 .f32) (main_arg1 : IVec S32x8192 1) (main_arg2 : FVec F S64x512 .f32) (main_arg3 : FVec F S64 .f32) (main_arg4 : FVec F S8x64 .f32) (main_arg5 : FVec F S8 .f32) (main_arg6 : FVec F S8x64 .f32) : IVec S_ 1 :=
  let main_v0 : FVec F S32x8192x512 .f32 := Host.absf main_arg0
  let main_cst : FVec F S_ .f32 := constant S_ .f32 0x7F800000#32
  let main_v1 : FVec F S32x8192x512 .f32 := broadcastInDim S32x8192x512 ![] bcast_S_S32x8192x512 main_cst
  let main_v2 : IVec S32x8192x512 1 := cmpf .olt main_v0 main_v1
  let main_c : IVec S_ 1 := constantI S_ 1 1#1
  let main_v3 : IVec S_ 1 := (fun x v => Host.reduce IntOp.andi x v reducesTo_S32x8192x512_S_d0_1_2 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_v13 main_v16
-- ==== Kernel.lean ====
abbrev S32x8192x512 : Shape := ⟨3, ![32, 8192, 512]⟩
abbrev S32x8192 : Shape := ⟨2, ![32, 8192]⟩
abbrev S64x512 : Shape := ⟨2, ![64, 512]⟩
abbrev S64 : Shape := ⟨1, ![64]⟩
abbrev S8x64 : Shape := ⟨2, ![8, 64]⟩
abbrev S8 : Shape := ⟨1, ![8]⟩
abbrev S1x64 : Shape := ⟨2, ![1, 64]⟩
abbrev S1x8 : Shape := ⟨2, ![1, 8]⟩
abbrev S32x8x64 : Shape := ⟨3, ![32, 8, 64]⟩
abbrev S1x4096x512 : Shape := ⟨3, ![1, 4096, 512]⟩
abbrev S1x8x64 : Shape := ⟨3, ![1, 8, 64]⟩
abbrev S8x1 : Shape := ⟨2, ![8, 1]⟩
abbrev S1x1024x512 : Shape := ⟨3, ![1, 1024, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S1024x8 : Shape := ⟨2, ![1024, 8]⟩
abbrev S1 : Shape := ⟨1, ![1]⟩
abbrev S1x1 : Shape := ⟨2, ![1, 1]⟩
abbrev S32x512 : Shape := ⟨2, ![32, 512]⟩

abbrev nBuf : Space → Nat
  | .hbm => 13
  | .vmem => 11
  | .smem => 0
  | _ => 0

abbrev bufTy : (tb : Table) → Fin (tcTables nBuf tb) → BufTy
  | .hbm, ⟨0, _⟩ => ⟨S32x8192x512, .f32⟩
  | .hbm, ⟨1, _⟩ => ⟨S32x8192, .i1⟩
  | .hbm, ⟨2, _⟩ => ⟨S64x512, .f32⟩
  | .hbm, ⟨3, _⟩ => ⟨S64, .f32⟩
  | .hbm, ⟨4, _⟩ => ⟨S8x64, .f32⟩
  | .hbm, ⟨5, _⟩ => ⟨S8, .f32⟩
  | .hbm, ⟨6, _⟩ => ⟨S8x64, .f32⟩
  | .hbm, ⟨7, _⟩ => ⟨S64x512, .bf16⟩
  | .hbm, ⟨8, _⟩ => ⟨S8x64, .bf16⟩
  | .hbm, ⟨9, _⟩ => ⟨S1x64, .f32⟩
  | .hbm, ⟨10, _⟩ => ⟨S1x8, .f32⟩
  | .hbm, ⟨11, _⟩ => ⟨S32x8x64, .f32⟩
  | .hbm, ⟨12, _⟩ => ⟨S32x512, .f32⟩
  | .local _ .vmem, ⟨0, _⟩ => ⟨S1x4096x512, .f32⟩
  | .local _ .vmem, ⟨1, _⟩ => ⟨S1x4096x512, .f32⟩
  | .local _ .vmem, ⟨2, _⟩ => ⟨S64x512, .bf16⟩
  | .local _ .vmem, ⟨3, _⟩ => ⟨S1x64, .f32⟩
  | .local _ .vmem, ⟨4, _⟩ => ⟨S8x64, .bf16⟩
  | .local _ .vmem, ⟨5, _⟩ => ⟨S1x8, .f32⟩
  | .local _ .vmem, ⟨6, _⟩ => ⟨S8x64, .f32⟩
  | .local _ .vmem, ⟨7, _⟩ => ⟨S1x8x64, .f32⟩
  | .local _ .vmem, ⟨8, _⟩ => ⟨S1x8x64, .f32⟩
  | .local _ .vmem, ⟨9, _⟩ => ⟨S8x64, .f32⟩
  | .local _ .vmem, ⟨10, _⟩ => ⟨S8x1, .f32⟩
  | _, _ => ⟨S32x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_8 : BitVec 32 := 0#32
  let c4_i32 : BitVec 32 := 4#32
  let v11 : BitVec 32 := Scalar.addi c0_i32_8 c4_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg11 : BitVec 32 := Scf.iv c0_i32_8 c1_i32 k0_t1
  let c1024_i32 : BitVec 32 := 1024#32
  let v15 : BitVec 32 := Scalar.muli arg11 c1024_i32
  v15
def k0_off1 (k0_t1 : Fin k0_t1_loop.trips) : Fin 3 → Nat :=
  let c0_12 : Index := 0#32
  let c0_i32_8 : BitVec 32 := 0#32
  let c1_i32 : BitVec 32 := 1#32
  let arg11 : BitVec 32 := Scf.iv c0_i32_8 c1_i32 k0_t1
  let c1024_i32 : BitVec 32 := 1024#32
  let v15 : BitVec 32 := Scalar.muli arg11 c1024_i32
  let v16 : BitVec 32 := v15
  let v17 : Index := Scalar.indexCast v16
  let c0_13 : Index := 0#32
  ![0, v17.toNat, 0]
def k0_cond2 (i : grid0.Coords) : BitVec 1 :=
  let arg1 : BitVec 32 := BitVec.ofNat 32 (i 1).val
  let c1_i32_10 : BitVec 32 := 1#32
  let v12 : BitVec 1 := Scalar.cmpi .eq arg1 c1_i32_10
  let v13 : BitVec 32 := Scalar.extui v12
  let c0_i32_11 : BitVec 32 := 0#32
  let v14 : BitVec 1 := Scalar.cmpi .ne v13 c0_i32_11
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S64_S1x64 : S64.ShapeCasts S1x64
  shapeCasts_S8_S1x8 : S8.ShapeCasts S1x8
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x8_S1x8_0_0 : ∀ a, (![0, 0] : Fin 2 → Nat) a + S1x8.size a ≤ S1x8.size a
  h_S1x8 : 0 < S1x8.numel
  shapeCasts_S1x8_S1x8 : S1x8.ShapeCasts S1x8
  h_S1x1024x512 : 0 < S1x1024x512.numel
  shapeCasts_S1x1024x512_S1024x512 : S1x1024x512.ShapeCasts S1024x512
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  broadcasts_S1x8_S1024x8 : S1x8.Broadcasts S1024x8
  reduces_S1024x8_S1024 : S1024x8.Reduces [1] S1024
  broadcasts_S1024x1_S1024x8 : S1024x1.Broadcasts S1024x8
  reduces_S1024x8_S8 : S1024x8.Reduces [0] S8
  shapeCasts_S8_S8x1 : S8.ShapeCasts S8x1
  broadcasts_S8x1_S8x64 : S8x1.Broadcasts S8x64
  reduces_S8x64_S8 : S8x64.Reduces [1] S8
  reduces_S8x1_S1 : S8x1.Reduces [0] S1
  shapeCasts_S1_S1x1 : S1.ShapeCasts S1x1
  broadcasts_S1x1_S8x64 : S1x1.Broadcasts S8x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  shapeCasts_S32x8x64_S32x512 : S32x8x64.ShapeCasts S32x512
  dot_S1024x512_S64x512_S1024x64_1_1_0_0_n_n_wf : DotDims.WF S1024x512 S64x512 S1024x64 [1] [1] [0] [0] [] []
  dot_S1024x64_S8x64_S1024x8_1_1_0_0_n_n_wf : DotDims.WF S1024x64 S8x64 S1024x8 [1] [1] [0] [0] [] []
  dot_S1024x8_S1024x64_S8x64_0_0_1_1_n_n_wf : DotDims.WF S1024x8 S1024x64 S8x64 [0] [0] [1] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x512.size a ≤ S1x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x8192x512.size a
  hwx0_0 : ∀ i : grid0.Coords, EltTy.bits .f32 = 32 ∨ (Rect.block (s := S32x8192x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .bf16 = 32 ∨ (Rect.block (s := S8x64) S8x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x64.size a ≤ S32x8x64.size a
  hwx0_6 : ∀ i : grid0.Coords, EltTy.bits .f32 = 32 ∨ (Rect.block (s := S32x8x64) S1x8x64.size (cc0_transform_6 i) (hinb0_6 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S1024x64_S8x64_S1024x8_1_1_0_0_n_n : DotDims S1024x64 S8x64 S1024x8 where
  lhsContracting := [1]
  rhsContracting := [1]
  lhsNonContracting := [0]
  rhsNonContracting := [0]
  lhsBatch := []
  rhsBatch := []
  wf := dot_S1024x64_S8x64_S1024x8_1_1_0_0_n_n_wf
def dot_S1024x8_S1024x64_S8x64_0_0_1_1_n_n : DotDims S1024x8 S1024x64 S8x64 where
  lhsContracting := [0]
  rhsContracting := [0]
  lhsNonContracting := [1]
  rhsNonContracting := [1]
  lhsBatch := []
  rhsBatch := []
  wf := dot_S1024x8_S1024x64_S8x64_0_0_1_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x8x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8192x512 : Shape := ⟨3, ![32, 8192, 512]⟩
abbrev S32x8192 : Shape := ⟨2, ![32, 8192]⟩
abbrev S64x512 : Shape := ⟨2, ![64, 512]⟩
abbrev S64 : Shape := ⟨1, ![64]⟩
abbrev S8x64 : Shape := ⟨2, ![8, 64]⟩
abbrev S8 : Shape := ⟨1, ![8]⟩
abbrev S32x8192x64 : Shape := ⟨3, ![32, 8192, 64]⟩
abbrev S1x1x64 : Shape := ⟨3, ![1, 1, 64]⟩
abbrev S_ : Shape := ⟨0, ![]⟩
abbrev S32x8192x1 : Shape := ⟨3, ![32, 8192, 1]⟩
abbrev S32x8192x8 : Shape := ⟨3, ![32, 8192, 8]⟩
abbrev S1x1x8 : Shape := ⟨3, ![1, 1, 8]⟩
abbrev S32x8x64 : Shape := ⟨3, ![32, 8, 64]⟩
abbrev S1x8x64 : Shape := ⟨3, ![1, 8, 64]⟩
abbrev S32x8 : Shape := ⟨2, ![32, 8]⟩
abbrev S32x8x1 : Shape := ⟨3, ![32, 8, 1]⟩
abbrev S32x512 : Shape := ⟨2, ![32, 512]⟩
abbrev S32 : Shape := ⟨1, ![32]⟩
abbrev S32x1 : Shape := ⟨2, ![32, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x8192x512, .f32⟩
  | .hbm, ⟨1, _⟩ => ⟨S32x8192, .i1⟩
  | .hbm, ⟨2, _⟩ => ⟨S64x512, .f32⟩
  | .hbm, ⟨3, _⟩ => ⟨S64, .f32⟩
  | .hbm, ⟨4, _⟩ => ⟨S8x64, .f32⟩
  | .hbm, ⟨5, _⟩ => ⟨S8, .f32⟩
  | .hbm, ⟨6, _⟩ => ⟨S8x64, .f32⟩
  | .hbm, ⟨7, _⟩ => ⟨S32x8192x64, .f32⟩
  | .hbm, ⟨8, _⟩ => ⟨S1x1x64, .f32⟩
  | .hbm, ⟨9, _⟩ => ⟨S32x8192x64, .f32⟩
  | .hbm, ⟨10, _⟩ => ⟨S32x8192x64, .f32⟩
  | .hbm, ⟨11, _⟩ => ⟨S32x8192x64, .f32⟩
  | .hbm, ⟨12, _⟩ => ⟨S_, .f32⟩
  | .hbm, ⟨13, _⟩ => ⟨S32x8192, .f32⟩
  | .hbm, ⟨14, _⟩ => ⟨S32x8192x1, .f32⟩
  | .hbm, ⟨15, _⟩ => ⟨S32x8192x1, .f32⟩
  | .hbm, ⟨16, _⟩ => ⟨S_, .f32⟩
  | .hbm, ⟨17, _⟩ => ⟨S32x8192x1, .f32⟩
  | .hbm, ⟨18, _⟩ => ⟨S32x8192x1, .f32⟩
  | .hbm, ⟨19, _⟩ => ⟨S32x8192x64, .f32⟩
  | .hbm, ⟨20, _⟩ => ⟨S32x8192x64, .f32⟩
  | .hbm, ⟨21, _⟩ => ⟨S32x8192x8, .f32⟩
  | .hbm, ⟨22, _⟩ => ⟨S1x1x8, .f32⟩
  | .hbm, ⟨23, _⟩ => ⟨S32x8192x8, .f32⟩
  | .hbm, ⟨24, _⟩ => ⟨S32x8192x8, .f32⟩
  | .hbm, ⟨25, _⟩ => ⟨S_, .f32⟩
  | .hbm, ⟨26, _⟩ => ⟨S32x8192, .f32⟩
  | .hbm, ⟨27, _⟩ => ⟨S_, .f32⟩
  | .hbm, ⟨28, _⟩ => ⟨S32x8192, .f32⟩
  | .hbm, ⟨29, _⟩ => ⟨S32x8192, .f32⟩
  | .hbm, ⟨30, _⟩ => ⟨S32x8192x1, .f32⟩
  | .hbm, ⟨31, _⟩ => ⟨S32x8192x8, .f32⟩
  | .hbm, ⟨32, _⟩ => ⟨S32x8192x8, .f32⟩
  | .hbm, ⟨33, _⟩ => ⟨S32x8192x8, .f32⟩
  | .hbm, ⟨34, _⟩ => ⟨S_, .f32⟩
  | .hbm, ⟨35, _⟩ => ⟨S32x8192, .f32⟩
  | .hbm, ⟨36, _⟩ => ⟨S32x8192x1, .f32⟩
  | .hbm, ⟨37, _⟩ => ⟨S32x8192x8, .f32⟩
  | .hbm, ⟨38, _⟩ => ⟨S32x8192x8, .f32⟩
  | .hbm, ⟨39, _⟩ => ⟨S32x8x64, .f32⟩
  | .hbm, ⟨40, _⟩ => ⟨S1x8x64, .f32⟩
  | .hbm, ⟨41, _⟩ => ⟨S_, .f32⟩
  | .hbm, ⟨42, _⟩ => ⟨S32x8, .f32⟩
  | .hbm, ⟨43, _⟩ => ⟨S32x8x1, .f32⟩
  | .hbm, ⟨44, _⟩ => ⟨S32x8x64, .f32⟩
  | .hbm, ⟨45, _⟩ => ⟨S32x8x64, .f32⟩
  | .hbm, ⟨46, _⟩ => ⟨S32x8x64, .f32⟩
  | .hbm, ⟨47, _⟩ => ⟨S32x8x64, .f32⟩
  | .hbm, ⟨48, _⟩ => ⟨S32x8x64, .f32⟩
  | .hbm, ⟨49, _⟩ => ⟨S_, .f32⟩
  | .hbm, ⟨50, _⟩ => ⟨S32x8, .f32⟩
  | .hbm, ⟨51, _⟩ => ⟨S32x8x1, .f32⟩
  | .hbm, ⟨52, _⟩ => ⟨S32x8x1, .f32⟩
  | .hbm, ⟨53, _⟩ => ⟨S_, .f32⟩
  | .hbm, ⟨54, _⟩ => ⟨S32x8x1, .f32⟩
  | .hbm, ⟨55, _⟩ => ⟨S32x8x1, .f32⟩
  | .hbm, ⟨56, _⟩ => ⟨S32x8x64, .f32⟩
  | .hbm, ⟨57, _⟩ => ⟨S32x8x64, .f32⟩
  | .hbm, ⟨58, _⟩ => ⟨S32x512, .f32⟩
  | .hbm, ⟨59, _⟩ => ⟨S32x512, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S32x1, .f32⟩
  | .hbm, ⟨64, _⟩ => ⟨S_, .f32⟩
  | .hbm, ⟨65, _⟩ => ⟨S32x1, .f32⟩
  | .hbm, ⟨66, _⟩ => ⟨S32x1, .f32⟩
  | .hbm, ⟨67, _⟩ => ⟨S32x512, .f32⟩
  | .hbm, ⟨68, _⟩ => ⟨S32x512, .f32⟩
  | _, _ => ⟨S32x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x8192x64_0_1_2 : S1x1x64.BroadcastsInDim S32x8192x64 (![0, 1, 2] : Fin 3 → Fin S32x8192x64.rank)
  reducesTo_S32x8192x64_S32x8192_d2 : S32x8192x64.ReducesTo [2] S32x8192
  h_S_ : 0 < S_.numel
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S32x8192x1_S32x8192x64_0_1_2 : S32x8192x1.BroadcastsInDim S32x8192x64 (![0, 1, 2] : Fin 3 → Fin S32x8192x64.rank)
  bcast_S8_S1x1x8_2 : S8.BroadcastsInDim S1x1x8 (![2] : Fin 1 → Fin S1x1x8.rank)
  bcast_S1x1x8_S32x8192x8_0_1_2 : S1x1x8.BroadcastsInDim S32x8192x8 (![0, 1, 2] : Fin 3 → Fin S32x8192x8.rank)
  reducesTo_S32x8192x8_S32x8192_d2 : S32x8192x8.ReducesTo [2] S32x8192
  bcast_S_S32x8192 : S_.BroadcastsInDim S32x8192 (![] : Fin 0 → Fin S32x8192.rank)
  bcast_S32x8192x1_S32x8192x8_0_1_2 : S32x8192x1.BroadcastsInDim S32x8192x8 (![0, 1, 2] : Fin 3 → Fin S32x8192x8.rank)
  bcast_S8x64_S1x8x64_1_2 : S8x64.BroadcastsInDim S1x8x64 (![1, 2] : Fin 2 → Fin S1x8x64.rank)
  reducesTo_S32x8192x8_S32x8_d1 : S32x8192x8.ReducesTo [1] S32x8
  bcast_S32x8_S32x8x1_0_1 : S32x8.BroadcastsInDim S32x8x1 (![0, 1] : Fin 2 → Fin S32x8x1.rank)
  bcast_S1x8x64_S32x8x64_0_1_2 : S1x8x64.BroadcastsInDim S32x8x64 (![0, 1, 2] : Fin 3 → Fin S32x8x64.rank)
  bcast_S32x8x1_S32x8x64_0_1_2 : S32x8x1.BroadcastsInDim S32x8x64 (![0, 1, 2] : Fin 3 → Fin S32x8x64.rank)
  reducesTo_S32x8x64_S32x8_d2 : S32x8x64.ReducesTo [2] S32x8
  bcast_S_S32x8x1 : S_.BroadcastsInDim S32x8x1 (![] : Fin 0 → Fin S32x8x1.rank)
  shapeCasts_S32x8x64_S32x512 : S32x8x64.ShapeCasts S32x512
  reducesTo_S32x512_S32_d1 : S32x512.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  dot_S32x8192x512_S64x512_S32x8192x64_2_1_01_0_n_n_wf : DotDims.WF S32x8192x512 S64x512 S32x8192x64 [2] [1] [0, 1] [0] [] []
  dot_S32x8192x64_S8x64_S32x8192x8_2_1_01_0_n_n_wf : DotDims.WF S32x8192x64 S8x64 S32x8192x8 [2] [1] [0, 1] [0] [] []
  dot_S32x8192x8_S32x8192x64_S32x8x64_1_1_2_2_0_0_wf : DotDims.WF S32x8192x8 S32x8192x64 S32x8x64 [1] [1] [2] [2] [0] [0]

variable [Facts₀]

def dot_S32x8192x512_S64x512_S32x8192x64_2_1_01_0_n_n : DotDims S32x8192x512 S64x512 S32x8192x64 where
  lhsContracting := [2]
  rhsContracting := [1]
  lhsNonContracting := [0, 1]
  rhsNonContracting := [0]
  lhsBatch := []
  rhsBatch := []
  wf := dot_S32x8192x512_S64x512_S32x8192x64_2_1_01_0_n_n_wf
def dot_S32x8192x64_S8x64_S32x8192x8_2_1_01_0_n_n : DotDims S32x8192x64 S8x64 S32x8192x8 where
  lhsContracting := [2]
  rhsContracting := [1]
  lhsNonContracting := [0, 1]
  rhsNonContracting := [0]
  lhsBatch := []
  rhsBatch := []
  wf := dot_S32x8192x64_S8x64_S32x8192x8_2_1_01_0_n_n_wf
def dot_S32x8192x8_S32x8192x64_S32x8x64_1_1_2_2_0_0 : DotDims S32x8192x8 S32x8192x64 S32x8x64 where
  lhsContracting := [1]
  rhsContracting := [1]
  lhsNonContracting := [2]
  rhsNonContracting := [2]
  lhsBatch := [0]
  rhsBatch := [0]
  wf := dot_S32x8192x8_S32x8192x64_S32x8x64_1_1_2_2_0_0_wf

class Facts : Prop extends Facts₀ where

variable [Facts]
-- ==== Proof.Sweep.lean ====
/-
  What the two running buffers hold after the four passes of the inner loop.

  One grid point sees 4096 tokens of one batch element and walks them in four chunks of 1024 rows.  Each pass
  adds to the 8×64 buffer the product (assignments)ᵀ · (descriptors) of its chunk and to the 8×1 buffer the column
  sums of the chunk's assignments.  Here the contents after k passes are written as k applications of those two
  updates to what the buffers held before the loop, and the three things a grid point leaves — the two buffers, and
  at an odd point the output block — are read off the recorded stores.
-/
import proofs.«126445_j20444044329188_2_alg».proof.Proof.Gen.KernelIdeal.Frame
import Idealize.ShloMosaic.Lib.Pipeline.Value

set_option maxRecDepth 16384

noncomputable section

namespace Cert.KernelIdeal.Sweep

open Cert.KernelIdeal Cert.KernelIdeal.Gen
open Idealize.ShloMosaic Idealize.ShloMosaic.TcCoe Idealize.SL.Sem

variable {F : FTy → Type} [FloatOps F]

theorem zero2 : (![0, 0] : Fin 2 → ℕ) = fun _ => 0 := by funext a; fin_cases a <;> rfl
theorem zero3 : (![0, 0, 0] : Fin 3 → ℕ) = fun _ => 0 := by funext a; fin_cases a <;> rfl

/-- A buffer stored whole once reads back the stored value, whatever it held before. -/
theorem read_store_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- A whole-buffer load of a whole memref holding X reads X. -/
theorem load_whole {Val : EltTy → Type} {sg : RefSig} {κ : Kind} {sp : Space} {S : Shape} {e : EltTy}
    (m : Memref sg κ sp S e) (hm : m.IsWhole) (X : S.Idx → Val e) {off : Fin S.rank → Nat} (h : off = fun _ => 0)
    (inb : ∀ a, off a + S.size a ≤ S.size a) :
    m.view.readAt Val (Rect.unit off S.size inb).toLoadRect (hm.unread X) = X := by
  rw [View.readAt_eq_ld, hm.read_unread, View.ld_unit_zero h]

/-- A whole-matrix load of a matrix reads the matrix. -/
theorem ld_whole2 {Val : EltTy → Type} {a b : ℕ} {e : EltTy} (X : (⟨2, ![a, b]⟩ : Shape).Idx → Val e)
    (inb : ∀ ax, (![0, 0] : Fin 2 → ℕ) ax + (⟨2, ![a, b]⟩ : Shape).size ax ≤ (⟨2, ![a, b]⟩ : Shape).size ax) :
    View.ld X (Rect.unit (s := ⟨2, ![a, b]⟩) ![0, 0] ![a, b] inb) = X :=
  View.ld_unit_zero (S := ⟨2, ![a, b]⟩) zero2 inb X

/-- Rows 1024·k … 1024·k + 1023 of a 4096-row block. -/
def chunk (x0 : Vec F S1x4096x512 .f32) (k : Fin k0_t1_loop.trips) : Vec F S1x1024x512 .f32 :=
  View.ld x0 (Rect.unit (s := S1x4096x512) (k0_off1 k) S1x1024x512.size (Gen.k0_off1_inb k))

/-- One pass's update of the 8×64 buffer: add the chunk's (assignments)ᵀ · (descriptors). -/
def accStep (x0 : Vec F S1x4096x512 .f32) (w1 : Vec F S64x512 .bf16) (b1 : Vec F S1x64 .f32) (w2 : Vec F S8x64 .bf16) (b2 : Vec F S1x8 .f32)
    (k : Fin k0_t1_loop.trips) (a : Vec F S8x64 .f32) : Vec F S8x64 .f32 :=
  k0_pay11 (k0_pay3 w1) (k0_pay4 w2) (k0_pay5 b1) (k0_pay6 b2) (chunk x0 k) a

/-- One pass's update of the 8×1 buffer: add the chunk's assignment totals. -/
def sumStep (x0 : Vec F S1x4096x512 .f32) (w1 : Vec F S64x512 .bf16) (b1 : Vec F S1x64 .f32) (w2 : Vec F S8x64 .bf16) (b2 : Vec F S1x8 .f32)
    (k : Fin k0_t1_loop.trips) (s : Vec F S8x1 .f32) : Vec F S8x1 .f32 :=
  k0_pay7 (k0_pay12 (k0_pay3 w1) (k0_pay4 w2) (k0_pay5 b1) (k0_pay6 b2) (chunk x0 k)) s

/-- The two buffers after k passes, from contents (a0, s0). -/
def after (x0 : Vec F S1x4096x512 .f32) (w1 : Vec F S64x512 .bf16) (b1 : Vec F S1x64 .f32) (w2 : Vec F S8x64 .bf16) (b2 : Vec F S1x8 .f32)
    (a0 : Vec F S8x64 .f32) (s0 : Vec F S8x1 .f32) : ℕ → Vec F S8x64 .f32 × Vec F S8x1 .f32
  | 0 => (a0, s0)
  | k + 1 => if h : k < k0_t1_loop.trips then
      (accStep x0 w1 b1 w2 b2 ⟨k, h⟩ (after x0 w1 b1 w2 b2 a0 s0 k).1, sumStep x0 w1 b1 w2 b2 ⟨k, h⟩ (after x0 w1 b1 w2 b2 a0 s0 k).2)
    else after x0 w1 b1 w2 b2 a0 s0 k

theorem after_succ (x0 : Vec F S1x4096x512 .f32) (w1 : Vec F S64x512 .bf16) (b1 : Vec F S1x64 .f32) (w2 : Vec F S8x64 .bf16) (b2 : Vec F S1x8 .f32)
    (a0 : Vec F S8x64 .f32) (s0 : Vec F S8x1 .f32) (k : ℕ) (h : k < k0_t1_loop.trips) :
    after x0 w1 b1 w2 b2 a0 s0 (k + 1)
      = (accStep x0 w1 b1 w2 b2 ⟨k, h⟩ (after x0 w1 b1 w2 b2 a0 s0 k).1, sumStep x0 w1 b1 w2 b2 ⟨k, h⟩ (after x0 w1 b1 w2 b2 a0 s0 k).2) := by
  rw [after]; exact dif_pos h

/-- The loop makes four passes. -/
theorem trips_eq : k0_t1_loop.trips = 4 := by decide

def q0 : Fin k0_t1_loop.trips := ⟨0, by decide⟩
def q1 : Fin k0_t1_loop.trips := ⟨1, by decide⟩
def q2 : Fin k0_t1_loop.trips := ⟨2, by decide⟩
def q3 : Fin k0_t1_loop.trips := ⟨3, by decide⟩

/-- After the loop: the four updates, one after the other. -/
theorem after_trips (x0 : Vec F S1x4096x512 .f32) (w1 : Vec F S64x512 .bf16) (b1 : Vec F S1x64 .f32) (w2 : Vec F S8x64 .bf16) (b2 : Vec F S1x8 .f32)
    (a0 : Vec F S8x64 .f32) (s0 : Vec F S8x1 .f32) :
    after x0 w1 b1 w2 b2 a0 s0 k0_t1_loop.trips
      = (accStep x0 w1 b1 w2 b2 q3 (accStep x0 w1 b1 w2 b2 q2 (accStep x0 w1 b1 w2 b2 q1 (accStep x0 w1 b1 w2 b2 q0 a0))),
         sumStep x0 w1 b1 w2 b2 q3 (sumStep x0 w1 b1 w2 b2 q2 (sumStep x0 w1 b1 w2 b2 q1 (sumStep x0 w1 b1 w2 b2 q0 s0)))) := by
  have e : after x0 w1 b1 w2 b2 a0 s0 k0_t1_loop.trips = after x0 w1 b1 w2 b2 a0 s0 (0 + 1 + 1 + 1 + 1) := congrArg _ trips_eq
  rw [e, after_succ _ _ _ _ _ _ _ (0 + 1 + 1 + 1) q3.isLt, after_succ _ _ _ _ _ _ _ (0 + 1 + 1) q2.isLt,
    after_succ _ _ _ _ _ _ _ (0 + 1) q1.isLt, after_succ _ _ _ _ _ _ _ 0 q0.isLt]
  rfl

/-- One pass, read back: the stores it records into the two buffers leave the two updates of what it found there. -/
theorem trip_reads (𝒱 : Variants) (c : Dev nD) (bd : Option 𝒱.V) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole)
    (v3 : Vec F S64x512 .bf16) (v5 : Vec F S8x64 .bf16) (v7 : Vec F S1x64 .f32) (v9 : Vec F S1x8 .f32)
    (x0 : Vec F S1x4096x512 .f32) (k : Fin k0_t1_loop.trips) (f9 : BufTy.Contents (Elt F) arg9.view.ty) (f10 : BufTy.Contents (Elt F) arg10.view.ty) :
    arg9.view.read (Elt F) (arg9.view.writes (Elt F) f9 (tripL_k0_t1 (F := F) 𝒱 c bd i arg2 harg2 arg3 harg3 arg4 harg4 arg5 harg5 arg6 harg6 arg7 harg7 arg8 harg8 arg9 harg9 arg10 harg10 v3 v5 v7 v9 (harg2.unread x0) k f9 f10).1)
        = accStep x0 v3 v7 v5 v9 k (arg9.view.read (Elt F) f9)
    ∧ arg10.view.read (Elt F) (arg10.view.writes (Elt F) f10 (tripL_k0_t1 (F := F) 𝒱 c bd i arg2 harg2 arg3 harg3 arg4 harg4 arg5 harg5 arg6 harg6 arg7 harg7 arg8 harg8 arg9 harg9 arg10 harg10 v3 v5 v7 v9 (harg2.unread x0) k f9 f10).2)
        = sumStep x0 v3 v7 v5 v9 k (arg10.view.read (Elt F) f10) := by
  unfold tripL_k0_t1 trip_k0_t1
  dsimp only
  constructor
  · refine (read_store_whole _ _ zero2 _ _).trans ?_
    unfold accStep chunk
    rw [View.readAt_eq_ld, View.readAt_eq_ld, harg2.read_unread, View.ld_unit_zero zero2]
  · refine (read_store_whole _ _ zero2 _ _).trans ?_
    unfold sumStep chunk trip_k0_t1.sl.r
    rw [View.readAt_eq_ld, View.readAt_eq_ld, harg2.read_unread, View.ld_unit_zero zero2]

/-- The stores recorded for the first k passes, read back: k updates of what the loop found in the two buffers. -/
theorem passes_read (𝒱 : Variants) (c : Dev nD) (bd : Option 𝒱.V) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole)
    (v3 : Vec F S64x512 .bf16) (v5 : Vec F S8x64 .bf16) (v7 : Vec F S1x64 .f32) (v9 : Vec F S1x8 .f32)
    (x0 : Vec F S1x4096x512 .f32) (G9 : BufTy.Contents (Elt F) arg9.view.ty) (G10 : BufTy.Contents (Elt F) arg10.view.ty)
    (k : ℕ) (hk : k ≤ k0_t1_loop.trips) :
    arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 v3 v5 v7 v9 (harg2.unread x0) G9 G10 k).1)
        = (after x0 v3 v7 v5 v9 (arg9.view.read (Elt F) G9) (arg10.view.read (Elt F) G10) k).1
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 v3 v5 v7 v9 (harg2.unread x0) G9 G10 k).2)
        = (after x0 v3 v7 v5 v9 (arg9.view.read (Elt F) G9) (arg10.view.read (Elt F) G10) k).2 := by
  induction k with
  | zero => exact ⟨rfl, rfl⟩
  | succ k ih =>
    have hk' : k < k0_t1_loop.trips := hk
    obtain ⟨ih9, ih10⟩ := ih (Nat.le_of_lt hk')
    have hs := pb_k0_t1_succ (F := F) 𝒱 c bd i arg2 harg2 arg3 harg3 arg4 harg4 arg5 harg5 arg6 harg6 arg7 harg7 arg8 harg8 arg9 harg9 arg10 harg10 v3 v5 v7 v9 (harg2.unread x0) G9 G10 ⟨k, hk'⟩
    dsimp only at hs
    have ht := trip_reads 𝒱 c bd i arg2 harg2 arg3 harg3 arg4 harg4 arg5 harg5 arg6 harg6 arg7 harg7 arg8 harg8 arg9 harg9 arg10 harg10 v3 v5 v7 v9 x0 ⟨k, hk'⟩
      (arg9.view.writes (Elt F) G9 (pb_k0_t1 (F := F) 𝒱 c bd i arg2 harg2 arg3 harg3 arg4 harg4 arg5 harg5 arg6 harg6 arg7 harg7 arg8 harg8 arg9 harg9 arg10 harg10 v3 v5 v7 v9 (harg2.unread x0) G9 G10 k).1) (arg10.view.writes (Elt F) G10 (pb_k0_t1 (F := F) 𝒱 c bd i arg2 harg2 arg3 harg3 arg4 harg4 arg5 harg5 arg6 harg6 arg7 harg7 arg8 harg8 arg9 harg9 arg10 harg10 v3 v5 v7 v9 (harg2.unread x0) G9 G10 k).2)
    rw [hs, after_succ _ _ _ _ _ _ _ k hk']
    dsimp only
    rw [View.writes_append, View.writes_append, ht.1, ht.2, ih9, ih10]
    exact ⟨rfl, rfl⟩

/-! ## What a grid point leaves -/

/-- An even point (it first clears both buffers): the 8×64 buffer ends at four updates of the zero contents. -/
theorem even_acc (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : cond0_0 i) (hc1 : ¬cond0_1 i) (x0 : Vec F S1x4096x512 .f32) (x1 : Vec F S64x512 .bf16) (x2 : Vec F S1x64 .f32) (x3 : Vec F S8x64 .bf16) (x4 : Vec F S1x8 .f32) (x5 : Vec F S8x64 .f32) :
    sout0_A_0 c i arg2 harg2 arg3 harg3 arg4 harg4 arg5 harg5 arg6 harg6 arg7 harg7 arg8 harg8 arg9 harg9 arg10 harg10 hc0 hc1 x0 x1 x2 x3 x4 x5
      = (after x0 x1 x2 x3 x4 (k0_pay1 (F := F)) (k0_pay2 (F := F)) k0_t1_loop.trips).1 := by
  unfold sout0_A_0
  refine (View.read_writes_of_cover _ _ arg9.view arg9.view.junk _ (scover0_A_0 c i arg2 harg2 arg3 harg3 arg4 harg4 arg5 harg5 arg6 harg6 arg7 harg7 arg8 harg8 arg9 harg9 arg10 harg10 hc0 hc1 x0 x1 x2 x3 x4 x5)).trans ?_
  unfold kernelRun0_A
  dsimp only
  unfold kernelRun0_A.sl.HS0_1 kernelRun0_A.sl.HS1_1
  rw [View.writes_append]
  refine (passes_read (F := F) Variants.none c none i arg2 harg2 arg3 harg3 arg4 harg4 arg5 harg5 arg6 harg6 arg7 harg7 arg8 harg8 arg9 harg9 arg10 harg10 _ _ _ _ x0 _ _ _ le_rfl).1.trans ?_
  simp only [View.readAt_eq_ld, Memref.IsWhole.read_unread, ld_whole2,
    read_store_whole (S := S8x64) _ _ zero2, read_store_whole (S := S8x1) _ _ zero2]

/-- An even point: the 8×1 buffer likewise. -/
theorem even_tot (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : cond0_0 i) (hc1 : ¬cond0_1 i) (x0 : Vec F S1x4096x512 .f32) (x1 : Vec F S64x512 .bf16) (x2 : Vec F S1x64 .f32) (x3 : Vec F S8x64 .bf16) (x4 : Vec F S1x8 .f32) (x5 : Vec F S8x64 .f32) :
    sout0_A_1 c i arg2 harg2 arg3 harg3 arg4 harg4 arg5 harg5 arg6 harg6 arg7 harg7 arg8 harg8 arg9 harg9 arg10 harg10 hc0 hc1 x0 x1 x2 x3 x4 x5
      = (after x0 x1 x2 x3 x4 (k0_pay1 (F := F)) (k0_pay2 (F := F)) k0_t1_loop.trips).2 := by
  unfold sout0_A_1
  refine (View.read_writes_of_cover _ _ arg10.view arg10.view.junk _ (scover0_A_1 c i arg2 harg2 arg3 harg3 arg4 harg4 arg5 harg5 arg6 harg6 arg7 harg7 arg8 harg8 arg9 harg9 arg10 harg10 hc0 hc1 x0 x1 x2 x3 x4 x5)).trans ?_
  unfold kernelRun0_A
  dsimp only
  unfold kernelRun0_A.sl.HS0_1 kernelRun0_A.sl.HS1_1
  rw [View.writes_append]
  refine (passes_read (F := F) Variants.none c none i arg2 harg2 arg3 harg3 arg4 harg4 arg5 harg5 arg6 harg6 arg7 harg7 arg8 harg8 arg9 harg9 arg10 harg10 _ _ _ _ x0 _ _ _ le_rfl).2.trans ?_
  simp only [View.readAt_eq_ld, Memref.IsWhole.read_unread, ld_whole2,
    read_store_whole (S := S8x64) _ _ zero2, read_store_whole (S := S8x1) _ _ zero2]

/-- An odd point (it continues from what the even point before it left, a0 and s0): the 8×64 buffer. -/
theorem odd_acc (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : ¬cond0_0 i) (hc1 : cond0_1 i) (x0 : Vec F S1x4096x512 .f32) (x1 : Vec F S64x512 .bf16) (x2 : Vec F S1x64 .f32) (x3 : Vec F S8x64 .bf16) (x4 : Vec F S1x8 .f32) (x5 : Vec F S8x64 .f32)
    (a0 : Vec F S8x64 .f32) (s0 : Vec F S8x1 .f32) :
    sout0_B_0 c i arg2 harg2 arg3 harg3 arg4 harg4 arg5 harg5 arg6 harg6 arg7 harg7 arg8 harg8 arg9 harg9 arg10 harg10 hc0 hc1 x0 x1 x2 x3 x4 x5 a0 s0 = (after x0 x1 x2 x3 x4 a0 s0 k0_t1_loop.trips).1 := by
  unfold sout0_B_0
  refine (View.read_writes_of_cover _ _ arg9.view (harg9.unread a0) _ (scover0_B_0 c i arg2 harg2 arg3 harg3 arg4 harg4 arg5 harg5 arg6 harg6 arg7 harg7 arg8 harg8 arg9 harg9 arg10 harg10 hc0 hc1 x0 x1 x2 x3 x4 x5 a0 s0)).trans ?_
  unfold kernelRun0_B
  dsimp only
  refine (passes_read (F := F) Variants.none c none i arg2 harg2 arg3 harg3 arg4 harg4 arg5 harg5 arg6 harg6 arg7 harg7 arg8 harg8 arg9 harg9 arg10 harg10 _ _ _ _ x0 _ _ _ le_rfl).1.trans ?_
  simp only [View.readAt_eq_ld, Memref.IsWhole.read_unread, ld_whole2]

/-- An odd point: the 8×1 buffer. -/
theorem odd_tot (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : ¬cond0_0 i) (hc1 : cond0_1 i) (x0 : Vec F S1x4096x512 .f32) (x1 : Vec F S64x512 .bf16) (x2 : Vec F S1x64 .f32) (x3 : Vec F S8x64 .bf16) (x4 : Vec F S1x8 .f32) (x5 : Vec F S8x64 .f32)
    (a0 : Vec F S8x64 .f32) (s0 : Vec F S8x1 .f32) :
    sout0_B_1 c i arg2 harg2 arg3 harg3 arg4 harg4 arg5 harg5 arg6 harg6 arg7 harg7 arg8 harg8 arg9 harg9 arg10 harg10 hc0 hc1 x0 x1 x2 x3 x4 x5 a0 s0 = (after x0 x1 x2 x3 x4 a0 s0 k0_t1_loop.trips).2 := by
  unfold sout0_B_1
  refine (View.read_writes_of_cover _ _ arg10.view (harg10.unread s0) _ (scover0_B_1 c i arg2 harg2 arg3 harg3 arg4 harg4 arg5 harg5 arg6 harg6 arg7 harg7 arg8 harg8 arg9 harg9 arg10 harg10 hc0 hc1 x0 x1 x2 x3 x4 x5 a0 s0)).trans ?_
  unfold kernelRun0_B
  dsimp only
  refine (passes_read (F := F) Variants.none c none i arg2 harg2 arg3 harg3 arg4 harg4 arg5 harg5 arg6 harg6 arg7 harg7 arg8 harg8 arg9 harg9 arg10 harg10 _ _ _ _ x0 _ _ _ le_rfl).2.trans ?_
  simp only [View.readAt_eq_ld, Memref.IsWhole.read_unread, ld_whole2]

/-- An odd point: the output block is the finalization of the two buffers as the four passes leave them. -/
theorem odd_out (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S1x64 .f32) (harg4 : arg4.IsWhole) (arg5 : Memref sig .tc .vmem S8x64 .bf16) (harg5 : arg5.IsWhole) (arg6 : Memref sig .tc .vmem S1x8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : ¬cond0_0 i) (hc1 : cond0_1 i) (x0 : Vec F S1x4096x512 .f32) (x1 : Vec F S64x512 .bf16) (x2 : Vec F S1x64 .f32) (x3 : Vec F S8x64 .bf16) (x4 : Vec F S1x8 .f32) (x5 : Vec F S8x64 .f32)
    (a0 : Vec F S8x64 .f32) (s0 : Vec F S8x1 .f32) :
    out0_B_6 c i arg2 harg2 arg3 harg3 arg4 harg4 arg5 harg5 arg6 harg6 arg7 harg7 arg8 harg8 arg9 harg9 arg10 harg10 hc0 hc1 x0 x1 x2 x3 x4 x5 a0 s0
      = k0_pay8 x5 (after x0 x1 x2 x3 x4 a0 s0 k0_t1_loop.trips).1 (after x0 x1 x2 x3 x4 a0 s0 k0_t1_loop.trips).2 := by
  unfold out0_B_6 kernelRun0_B
  dsimp only
  unfold kernelRun0_B.sl.v16 kernelRun0_B.sl.v17
  refine (read_store_whole _ _ zero3 _ _).trans ?_
  have hp := passes_read (F := F) Variants.none c none i arg2 harg2 arg3 harg3 arg4 harg4 arg5 harg5 arg6 harg6 arg7 harg7 arg8 harg8 arg9 harg9 arg10 harg10 x1 x3 x2 x4 x0 (harg9.unread a0) (harg10.unread s0) k0_t1_loop.trips le_rfl
  simp only [Memref.IsWhole.read_unread] at hp
  simp only [View.readAt_eq_ld, Memref.IsWhole.read_unread, ld_whole2]
  exact congr (congrArg (k0_pay8 x5) hp.1) hp.2

end Cert.KernelIdeal.Sweep

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.LibMatmulTN.lean ====
/-
  The hardware matrix product with the dimension numbers "contract axis 0 of both operands" — a K×M operand against
  a K×N operand, that is the product of the transpose of the first with the second — read at one entry on the
  extended reals: into a zero accumulator it is the plain sum over the K contracted positions of the products of the
  two columns' entries.
-/
import Idealize.ShloMosaic.Lib.ValueIdx
import Idealize.ShloMosaic.PureOps.Ideal.Laws

noncomputable section

open scoped BigOperators

namespace Cert.Lib.MatmulTN

open Idealize.ShloMosaic Idealize.ShloMosaic.ValueIdx

/-- A matrix product contracting axis 0 of a K×M operand with axis 0 of a K×N operand, accumulated into the zero
    splat, read at entry (a, b) at the ideal values: the sum over the K contracted positions c of the left operand at
    (c, a) times the right operand at (c, b). -/
theorem matmul_zero_tn_apply {M N K : Nat} {φ₁ φ₂ : FTy}
    (wf : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (a : Fin M) (b : Fin N) :
    FloatOps.matmul (⟨[0], [0], [1], [1], [], [], wf⟩ : DotDims ⟨2, ![K, M]⟩ ⟨2, ![K, N]⟩ ⟨2, ![M, N]⟩) prec A B
        (constant ⟨2, ![M, N]⟩ .f32 0x00000000#32) (ix2 a b)
      = ∑ c : Fin K, A (ix2 c a) * B (ix2 c b) := by
  rw [Ideal.matmul_constant_zero_apply,
    ← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun c _ => ?_
  have hc := contrEquiv1_symm_val
    (⟨[0], [0], [1], [1], [], [], wf⟩ : DotDims ⟨2, ![K, M]⟩ ⟨2, ![K, N]⟩ ⟨2, ![M, N]⟩) K rfl rfl c
  have hl : (⟨[0], [0], [1], [1], [], [], wf⟩ : DotDims ⟨2, ![K, M]⟩ ⟨2, ![K, N]⟩ ⟨2, ![M, N]⟩).lhsIdx (ix2 a b)
      ((contrEquiv1 _ K rfl rfl).symm c) = ix2 c a := by
    funext ax; apply Fin.ext
    match ax with
    | ⟨0, _⟩ => simp [DotDims.lhsIdx]; exact hc
    | ⟨1, _⟩ => simp [DotDims.lhsIdx]; rfl
  have hr : (⟨[0], [0], [1], [1], [], [], wf⟩ : DotDims ⟨2, ![K, M]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.Lib.MatmulTN

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibPoolForms.lean ====
/-
  Index forms of vector operations on the extended reals, at explicit coordinates and for any extents: the sum along
  the rows and the sum down the columns of a matrix started from the zero word, the maximum along the rows of a matrix
  started from the word of −∞, the broadcast of a one-entry matrix over a whole matrix, and the exponential read at an
  index.  The three reductions take the side condition on the starting word as the plain equation of two words of the format's width.
-/
import Idealize.ShloMosaic.Lib.ValueIdx
import Idealize.ShloMosaic.Lib.Pipeline.Value
import Idealize.ShloMosaic.PureOps.Ideal.Laws

noncomputable section

open scoped BigOperators

namespace Cert.Lib.PoolForms

open Idealize.ShloMosaic Idealize.ShloMosaic.ValueIdx

variable {α : Type}

/-- The sum down the columns of an a×b array, started from the zero word, read at column k: the sum over the a rows
    of the entries of that column. -/
theorem colSum_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = 0x00000000#32) (k : Fin b) :
    multiReduction (F := Ideal) .add [0] ⟨1, ![b]⟩ src 0x00000000#32 h hφ hacc (ix1 k) = ∑ r : Fin a, src (ix2 r k) := by
  refine (Ideal.multiReduction_add_single src _ h hφ hacc (ix1 k)).trans ?_
  refine Finset.sum_congr rfl fun r _ => congrArg src ?_
  funext ax; apply Fin.ext
  match ax with
  | ⟨0, _⟩ => rfl
  | ⟨1, _⟩ => rfl

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- The maximum along the rows of an a×b array started from the word of −∞, read at row r: the fold of max over the
    row's entries, from the value of that word. -/
theorem rowMax_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  refine Finset.fold_congr fun k _ => congrArg src ?_
  funext ax; apply Fin.ext
  match ax with
  | ⟨0, _⟩ => rfl
  | ⟨1, _⟩ => rfl

/-- A one-entry matrix [1, 1] broadcast to [a, b] reads its one entry everywhere. -/
theorem broadcastTo_11_ab_apply {a b : Nat} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector reads, at an index, the exponential of the entry. -/
theorem exp_apply {s : Shape} {φ : FTy} (a : FVec Ideal s φ) (i : s.Idx) : exp a i = Ideal.exp (a i) := rfl

end Cert.Lib.PoolForms

end
-- ==== Proof.LibScaledTiles.lean ====
/-
  Two facts about finite sums on the extended reals, for a contraction axis cut into equal tiles.

  * A sum over an axis of n·K positions is the sum over the n tiles of the sums inside each tile, position
    K·s + q of the axis being position q of tile s.
  * For real numbers a, b and a real scale σ, read as extended reals, multiplying the total of the tiles'
    sums of products a·b by σ gives the sum of the products a·(b·σ): on the reals this is distributivity, and a
    finite sum or product of reals read as extended reals is the extended real of the real sum or product.
    (On the extended reals alone the law fails: with an infinite total and σ = 0 the two sides differ.)
-/
import Idealize.ShloMosaic.PureOps.Ideal.Laws

noncomputable section

open scoped BigOperators

namespace Cert.Lib.ScaledTiles

/-- A finite sum of reals, read as an extended real, is the sum of the terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position q of tile s, on an axis of n·K positions. -/
def tilePos {n K : Nat} (s : Fin n) (q : Fin K) : Fin (n * K) :=
  ⟨K * s.val + q.val, by
    have hs := s.isLt; have hq := q.isLt
    calc K * s.val + q.val < K * s.val + K := by omega
      _ = K * (s.val + 1) := by ring
      _ ≤ K * n := Nat.mul_le_mul_left K hs
      _ = n * K := Nat.mul_comm K n⟩

theorem tilePos_val {n K : Nat} (s : Fin n) (q : Fin K) : (tilePos s q).val = K * s.val + q.val := rfl

/-- A sum over n·K positions, tile by tile. -/
theorem sum_tiles {β : Type*} [AddCommMonoid β] {n K : Nat} (f : Fin (n * K) → β) :
    ∑ k : Fin (n * K), f k = ∑ s : Fin n, ∑ q : Fin K, f (tilePos s q) := by
  rw [← Equiv.sum_comp finProdFinEquiv f, Fintype.sum_prod_type]
  refine Finset.sum_congr rfl fun s _ => Finset.sum_congr rfl fun q _ => ?_
  congr 1
  apply Fin.ext
  show q.val + K * s.val = K * s.val + q.val
  omega

/-- The total over tiles of the sums of products a·b, started from zero and then multiplied by σ, is the sum of the
    products a·(b·σ), for real a, b, σ read as extended reals. -/
theorem scaled_total_eq {κ ι : Type*} [Fintype κ] [Fintype ι] (a b : κ → ι → ℝ) (σ : ℝ) :
    (0 + ∑ s : κ, ∑ q : ι, ((a s q : ℝ) : EReal) * ((b s q : ℝ) : EReal)) * (σ : EReal)
      = ∑ s : κ, ∑ q : ι, ((a s q : ℝ) : EReal) * (((b s q : ℝ) : EReal) * (σ : EReal)) := by
  simp only [← EReal.coe_mul, ← coe_sum, zero_add]
  congr 1
  rw [Finset.sum_mul]
  refine Finset.sum_congr rfl fun s _ => ?_
  rw [Finset.sum_mul]
  refine Finset.sum_congr rfl fun q _ => ?_
  ring

end Cert.Lib.ScaledTiles

end
-- ==== Proof.Pooling.lean ====
/-
  NetVLAD pooling on the extended reals.

  For one token row x (C features): the descriptor is the affine image W·x + b divided by max(‖·‖₂, ε); the
  assignment is the softmax (shifted by the row maximum, the maximum taken from a lower word) of a second affine
  image of the descriptor.  For one batch element the pooled block is, cluster by cluster,
      Σ_tokens assignment_k · descriptor  −  centroid_k · Σ_tokens assignment_k,
  each cluster row divided by max(its norm, ε) and the whole block then divided by max(its norm, ε).

  The sum over the 8192 tokens of a batch element is also written over two halves of four chunks of 1024 rows —
  the order in which a two-point grid with a four-pass inner loop meets them.  Sums on the extended reals commute and
  associate, so no finiteness enters.
-/
import Idealize.ShloMosaic.PureOps.Ideal.Laws
import Idealize.ShloMosaic.Lib.ValueIdx
import proofs.«126445_j20444044329188_2_alg».proof.Proof.LibScaledTiles

noncomputable section

open scoped BigOperators

namespace Cert.Pooling

open Idealize.ShloMosaic

variable {C D K : ℕ}

/-- The affine image W·x + b of a row. -/
def lin (W : Fin D → Fin C → EReal) (b : Fin D → EReal) (x : Fin C → EReal) (j : Fin D) : EReal :=
  (∑ c : Fin C, x c * W j c) + b j

/-- A vector divided by the larger of its Euclidean norm and ε. -/
def unitize (ε : EReal) (y : Fin D → EReal) (j : Fin D) : EReal :=
  Ideal.div (y j) (max (Ideal.sqrt (∑ j' : Fin D, y j' * y j')) ε)

/-- The softmax of a row, shifted by its maximum (taken from the word lo). -/
def soft (lo : EReal) (l : Fin K → EReal) (k : Fin K) : EReal :=
  Ideal.div (Ideal.exp (l k - max lo ((Finset.univ : Finset (Fin K)).fold max lo l)))
    (∑ k' : Fin K, Ideal.exp (l k' - max lo ((Finset.univ : Finset (Fin K)).fold max lo l)))

/-- A K×D block: every row unitized, then the whole block divided by the larger of its norm and ε. -/
def finish (ε : EReal) (v : Fin K → Fin D → EReal) (k : Fin K) (j : Fin D) : EReal :=
  Ideal.div (unitize ε (v k) j)
    (max (Ideal.sqrt (∑ k' : Fin K, ∑ j' : Fin D, unitize ε (v k') j' * unitize ε (v k') j')) ε)

/-- ε = f32(1e-12), as both programs write it, and the word the row maximum starts from (−∞). -/
abbrev eps : EReal := Ideal.ofBits .f32 0x2B8CBCCC#32
abbrev lo : EReal := Ideal.ofBits .f32 0xFF800000#32

/-- The descriptor and the assignment of one token row. -/
def desc (w1 : Fin 64 → Fin 512 → EReal) (b1 : Fin 64 → EReal) (x : Fin 512 → EReal) : Fin 64 → EReal :=
  unitize eps (lin w1 b1 x)
def asg (w1 : Fin 64 → Fin 512 → EReal) (b1 : Fin 64 → EReal) (w2 : Fin 8 → Fin 64 → EReal) (b2 : Fin 8 → EReal)
    (x : Fin 512 → EReal) : Fin 8 → EReal :=
  soft lo (lin w2 b2 (desc w1 b1 x))

/-- The pooled block of one batch element whose 8192 token rows are X: from the sums over the tokens of
    assignment · descriptor and of the assignments, the residual against the centroids, finished. -/
def pooledOf (w1 : Fin 64 → Fin 512 → EReal) (b1 : Fin 64 → EReal) (w2 : Fin 8 → Fin 64 → EReal) (b2 : Fin 8 → EReal)
    (ce : Fin 8 → Fin 64 → EReal) (X : Fin 8192 → Fin 512 → EReal) (k : Fin 8) (j : Fin 64) : EReal :=
  finish eps (fun k j => (∑ n : Fin 8192, asg w1 b1 w2 b2 (X n) k * desc w1 b1 (X n) j)
    - ce k j * ∑ n : Fin 8192, asg w1 b1 w2 b2 (X n) k) k j

/-- Token 4096·p + 1024·q + r of a batch element: row r of chunk q of half p. -/
def token (p : Fin 2) (q : Fin 4) (r : Fin 1024) : Fin 8192 :=
  ⟨4096 * p.val + 1024 * q.val + r.val, by have := p.isLt; have := q.isLt; have := r.isLt; omega⟩

theorem token_val (p : Fin 2) (q : Fin 4) (r : Fin 1024) : (token p q r).val = 4096 * p.val + 1024 * q.val + r.val := rfl

/-- A sum over the 8192 tokens, half by half, chunk by chunk. -/
theorem sum_tokens {β : Type*} [AddCommMonoid β] (f : Fin 8192 → β) :
    ∑ n : Fin 8192, f n = ∑ p : Fin 2, ∑ q : Fin 4, ∑ r : Fin 1024, f (token p q r) := by
  have h1 := Cert.Lib.ScaledTiles.sum_tiles (n := 2) (K := 4096) (f : Fin (2 * 4096) → β)
  refine h1.trans (Finset.sum_congr rfl fun p _ => ?_)
  have h2 := Cert.Lib.ScaledTiles.sum_tiles (n := 4) (K := 1024)
    (fun m : Fin (4 * 1024) => f (Cert.Lib.ScaledTiles.tilePos (n := 2) (K := 4096) p m))
  refine h2.trans (Finset.sum_congr rfl fun q _ => Finset.sum_congr rfl fun r _ => congrArg f (Fin.ext ?_))
  simp only [Cert.Lib.ScaledTiles.tilePos_val, token_val]
  omega

/-- Eight chunk sums added one after the other onto zero, four and then four more, are the sum over both halves. -/
theorem two_sweeps (S : Fin 2 → Fin 4 → EReal) :
    (((((0 + S 0 0) + S 0 1) + S 0 2) + S 0 3) + S 1 0 + S 1 1 + S 1 2 + S 1 3) = ∑ p : Fin 2, ∑ q : Fin 4, S p q := by
  simp only [Fin.sum_univ_two, Fin.sum_univ_four, zero_add, add_assoc]

end Cert.Pooling

end
-- ==== Proof.Payloads.lean ====
/-
  The body's arithmetic read at an entry, on the extended reals.

  For a chunk of 1024 token rows: its descriptors (the affine image of each row divided by the larger of its norm and
  ε), its assignments (the shifted softmax of a second affine image of each descriptor), the update of the 8×64
  buffer (add Σ_rows assignment · descriptor), the update of the 8×1 buffer (add Σ_rows assignment), and the
  finalization of the two buffers into the output block.  A change of float format is the identity here.
-/
import proofs.«126445_j20444044329188_2_alg».proof.Proof.Gen.KernelIdeal.Skeleton
import proofs.«126445_j20444044329188_2_alg».proof.Proof.LibMatmulNT
import proofs.«126445_j20444044329188_2_alg».proof.Proof.LibMatmulTN
import proofs.«126445_j20444044329188_2_alg».proof.Proof.LibColumnForms
import proofs.«126445_j20444044329188_2_alg».proof.Proof.LibPoolForms
import proofs.«126445_j20444044329188_2_alg».proof.Proof.Pooling
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Payloads

open Cert.KernelIdeal Cert.KernelIdeal.Gen
open Idealize.ShloMosaic Idealize.ShloMosaic.ValueIdx
open Cert.Lib.ColumnForms (shapeCast_a_a1_apply broadcastTo_a1_ab_apply sqrt_apply)
open Cert.Lib.PoolForms Cert.Pooling

/-- A matrix by its entries, a one-row matrix by its row's entries, row r of a chunk. -/
def mat {α : Type} {a b : ℕ} (v : (⟨2, ![a, b]⟩ : Shape).Idx → α) (i : Fin a) (j : Fin b) : α := v (ix2 i j)
def row {α : Type} {b : ℕ} (v : (⟨2, ![1, b]⟩ : Shape).Idx → α) (j : Fin b) : α := v (ix2 (0 : Fin 1) j)
def tok {α : Type} {n c : ℕ} (v : (⟨3, ![1, n, c]⟩ : Shape).Idx → α) (r : Fin n) (k : Fin c) : α := v (ix3 (0 : Fin 1) r k)

theorem mm1 (A : FVec Ideal S1024x512 .bf16) (B : FVec Ideal S64x512 .bf16) (r : Fin 1024) (j : Fin 64) :
    matmul dot_S1024x512_S64x512_S1024x64_1_1_0_0_n_n none A B (constant S1024x64 .f32 0x00000000#32) (ix2 r j)
      = ∑ c : Fin 512, A (ix2 r c) * B (ix2 j c) :=
  Cert.Lib.MatmulNT.matmul_zero_nt_apply (M := 1024) (N := 64) (K := 512) _ none A B r j

theorem mm2 (A : FVec Ideal S1024x64 .bf16) (B : FVec Ideal S8x64 .bf16) (r : Fin 1024) (k : Fin 8) :
    matmul dot_S1024x64_S8x64_S1024x8_1_1_0_0_n_n none A B (constant S1024x8 .f32 0x00000000#32) (ix2 r k)
      = ∑ j : Fin 64, A (ix2 r j) * B (ix2 k j) :=
  Cert.Lib.MatmulNT.matmul_zero_nt_apply (M := 1024) (N := 8) (K := 64) _ none A B r k

theorem mm3 (A : FVec Ideal S1024x8 .bf16) (B : FVec Ideal S1024x64 .bf16) (k : Fin 8) (j : Fin 64) :
    matmul dot_S1024x8_S1024x64_S8x64_0_0_1_1_n_n none A B (constant S8x64 .f32 0x00000000#32) (ix2 k j)
      = ∑ r : Fin 1024, A (ix2 r k) * B (ix2 r j) :=
  Cert.Lib.MatmulTN.matmul_zero_tn_apply (M := 8) (N := 64) (K := 1024) _ none A B k j

/-- The chunk's descriptors. -/
theorem pay9_apply (v4 : FVec Ideal S64x512 .bf16) (v8 : FVec Ideal S1x64 .f32) (v18 : Vec Ideal S1x1024x512 .f32)
    (r : Fin 1024) (j : Fin 64) :
    k0_pay9 v4 v8 v18 (ix2 r j) = desc (mat v4) (row v8) (tok v18 r) j := by
  unfold k0_pay9
  simp only [divf_apply, truncf_apply, broadcastTo_a1_ab_apply, maximumf_apply, sqrt_apply, shapeCast_a_a1_apply,
    addf_apply, broadcast_apply, mm1, broadcastTo_1b_ab_apply, shapeCast_1ab_ab_apply]
  rw [rowSum_apply]
  simp only [mulf_apply, truncf_apply, addf_apply, mm1, broadcastTo_1b_ab_apply, shapeCast_1ab_ab_apply]
  rfl

/-- The chunk's assignments. -/
theorem pay10_apply (v4 : FVec Ideal S64x512 .bf16) (v6 : FVec Ideal S8x64 .bf16) (v8 : FVec Ideal S1x64 .f32)
    (v10 : FVec Ideal S1x8 .f32) (v18 : Vec Ideal S1x1024x512 .f32) (r : Fin 1024) (k : Fin 8) :
    k0_pay10 v4 v6 v8 v10 v18 (ix2 r k) = asg (mat v4) (row v8) (mat v6) (row v10) (tok v18 r) k := by
  unfold k0_pay10
  simp only [divf_apply, exp_apply, subf_apply, broadcastTo_a1_ab_apply, shapeCast_a_a1_apply, maximumf_apply,
    broadcast_apply, addf_apply, mm2, broadcastTo_1b_ab_apply, pay9_apply]
  rw [rowSum_apply]
  simp only [exp_apply, subf_apply, broadcastTo_a1_ab_apply, shapeCast_a_a1_apply, maximumf_apply,
    broadcast_apply, addf_apply, mm2, broadcastTo_1b_ab_apply, pay9_apply]
  rw [rowMax_apply]
  simp only [addf_apply, mm2, broadcastTo_1b_ab_apply, pay9_apply]
  rfl

/-- One pass's update of the 8×64 buffer. -/
theorem pay11_apply (v4 : FVec Ideal S64x512 .bf16) (v6 : FVec Ideal S8x64 .bf16) (v8 : FVec Ideal S1x64 .f32)
    (v10 : FVec Ideal S1x8 .f32) (v18 : Vec Ideal S1x1024x512 .f32) (v49 : Vec Ideal S8x64 .f32) (k : Fin 8) (j : Fin 64) :
    k0_pay11 v4 v6 v8 v10 v18 v49 (ix2 k j)
      = v49 (ix2 k j) + ∑ r : Fin 1024, asg (mat v4) (row v8) (mat v6) (row v10) (tok v18 r) k * desc (mat v4) (row v8) (tok v18 r) j := by
  unfold k0_pay11
  simp only [shapeCast_self, addf_apply, mm3, truncf_apply, pay9_apply, pay10_apply]

/-- One pass's update of the 8×1 buffer. -/
theorem pay7_apply (v4 : FVec Ideal S64x512 .bf16) (v6 : FVec Ideal S8x64 .bf16) (v8 : FVec Ideal S1x64 .f32)
    (v10 : FVec Ideal S1x8 .f32) (v18 : Vec Ideal S1x1024x512 .f32) (v56 : Vec Ideal S8x1 .f32) (k : Fin 8) (z : Fin 1) :
    k0_pay7 (k0_pay12 v4 v6 v8 v10 v18) v56 (ix2 k z)
      = v56 (ix2 k z) + ∑ r : Fin 1024, asg (mat v4) (row v8) (mat v6) (row v10) (tok v18 r) k := by
  unfold k0_pay7 k0_pay12
  simp only [shapeCast_self, addf_apply, shapeCast_a_a1_apply]
  rw [colSum_apply]
  simp only [pay10_apply]

/-! The finalization in three steps: the residual block, every row unitized, the block unitized. -/

/-- The residual: the 8×64 buffer minus centroid times the assignment total of the row's cluster. -/
def resid (v15 v16 : FVec Ideal S8x64 .f32) (v17 : FVec Ideal S8x1 .f32) : FVec Ideal S8x64 .f32 :=
  subf v16 (mulf v15 (broadcastTo S8x64 v17 broadcasts_S8x1_S8x64))

/-- Every row divided by the larger of its norm and ε. -/
def unitRows (v : FVec Ideal S8x64 .f32) : FVec Ideal S8x64 .f32 :=
  divf v (broadcastTo S8x64 (maximumf (sqrt (shapeCast S8x1
    (multiReduction .add [1] S8 (mulf v v) 0x00000000#32 reduces_S8x64_S8 (.inl rfl) rfl) shapeCasts_S8_S8x1))
    (broadcast S8x1 (Scalar.ofBits .f32 0x2B8CBCCC#32))) broadcasts_S8x1_S8x64)

/-- The whole block divided by the larger of its norm and ε. -/
def unitBlock (u : FVec Ideal S8x64 .f32) : FVec Ideal S8x64 .f32 :=
  divf u (broadcastTo S8x64 (maximumf (sqrt (shapeCast S1x1
    (multiReduction .add [0] S1 (shapeCast S8x1
      (multiReduction .add [1] S8 (mulf u u) 0x00000000#32 reduces_S8x64_S8 (.inl rfl) rfl) shapeCasts_S8_S8x1)
      0x00000000#32 reduces_S8x1_S1 (.inl rfl) rfl) shapeCasts_S1_S1x1))
    (broadcast S1x1 (Scalar.ofBits .f32 0x2B8CBCCC#32))) broadcasts_S1x1_S8x64)

theorem pay8_eq (v15 v16 : Vec Ideal S8x64 .f32) (v17 : Vec Ideal S8x1 .f32) :
    k0_pay8 v15 v16 v17 = shapeCast S1x8x64 (unitBlock (unitRows (resid v15 v16 v17))) shapeCasts_S8x64_S1x8x64 := rfl

theorem resid_apply (v15 v16 : FVec Ideal S8x64 .f32) (v17 : FVec Ideal S8x1 .f32) (k : Fin 8) (j : Fin 64) :
    resid v15 v16 v17 (ix2 k j) = v16 (ix2 k j) - v15 (ix2 k j) * v17 (ix2 k (0 : Fin 1)) := by
  simp only [resid, subf_apply, mulf_apply, broadcastTo_a1_ab_apply]

theorem unitRows_apply (v : FVec Ideal S8x64 .f32) (k : Fin 8) (j : Fin 64) :
    unitRows v (ix2 k j) = unitize eps (fun j => v (ix2 k j)) j := by
  unfold unitRows
  simp only [divf_apply, broadcastTo_a1_ab_apply, maximumf_apply, sqrt_apply, shapeCast_a_a1_apply, broadcast_apply]
  rw [rowSum_apply]
  rfl

theorem unitBlock_apply (u : FVec Ideal S8x64 .f32) (k : Fin 8) (j : Fin 64) :
    unitBlock u (ix2 k j)
      = Ideal.div (u (ix2 k j)) (max (Ideal.sqrt (∑ k' : Fin 8, ∑ j' : Fin 64, u (ix2 k' j') * u (ix2 k' j'))) eps) := by
  have hrow : ∀ k' : Fin 8, shapeCast S8x1
      (multiReduction (F := Ideal) .add [1] S8 (mulf u u) 0x00000000#32 reduces_S8x64_S8 (.inl rfl) rfl) shapeCasts_S8_S8x1 (ix2 k' (0 : Fin 1))
      = ∑ j' : Fin 64, u (ix2 k' j') * u (ix2 k' j') := fun k' => by
    rw [shapeCast_a_a1_apply, rowSum_apply]
    rfl
  unfold unitBlock
  simp only [divf_apply, broadcastTo_11_ab_apply, maximumf_apply, sqrt_apply, shapeCast_a_a1_apply, broadcast_apply]
  rw [colSum_apply, Finset.sum_congr rfl (fun k' _ => hrow k')]
  rfl

/-- The finalization: the residual block, every row unitized, the block unitized. -/
theorem pay8_apply (v15 v16 : Vec Ideal S8x64 .f32) (v17 : Vec Ideal S8x1 .f32) (u : Fin 1) (k : Fin 8) (j : Fin 64) :
    k0_pay8 v15 v16 v17 (ix3 u k j)
      = finish eps (fun k j => v16 (ix2 k j) - v15 (ix2 k j) * v17 (ix2 k (0 : Fin 1))) k j := by
  rw [pay8_eq, shapeCast_ab_1ab_apply, unitBlock_apply]
  simp only [unitRows_apply, resid_apply]
  rfl

/-- The two cleared buffers hold zero. -/
theorem pay1_apply (i : S8x64.Idx) : k0_pay1 (F := Ideal) i = 0 := by
  unfold k0_pay1
  simp only [shapeCast_self, broadcast_apply]
  exact Ideal.ofBits_zero_f32
theorem pay2_apply (i : S8x1.Idx) : k0_pay2 (F := Ideal) i = 0 := by
  unfold k0_pay2
  simp only [shapeCast_self, broadcast_apply]
  exact Ideal.ofBits_zero_f32

/-- The four resident operands enter the loop as loaded. -/
theorem pay3_eq (v : Vec Ideal S64x512 .bf16) : k0_pay3 v = v := by unfold k0_pay3; exact shapeCast_self _ _
theorem pay4_eq (v : Vec Ideal S8x64 .bf16) : k0_pay4 v = v := by unfold k0_pay4; exact shapeCast_self _ _
theorem pay5_eq (v : Vec Ideal S1x64 .f32) : k0_pay5 v = v := by unfold k0_pay5; exact shapeCast_self _ _
theorem pay6_eq (v : Vec Ideal S1x8 .f32) : k0_pay6 v = v := by unfold k0_pay6; exact shapeCast_self _ _

end Cert.KernelIdeal.Payloads

end
-- ==== Proof.Blocks.lean ====
/-
  What the kernel's staged blocks hold, in terms of the argument arrays.

  Grid point t = 2·b + p sees rows 4096·p … 4096·p + 4095 of batch element b of the token array; chunk q of that
  block starts at its row 1024·q, so row r of chunk q is token 4096·p + 1024·q + r.  The five small operands are
  staged whole at every point: the two weight matrices after a change of float format (the identity on the
  extended reals), the two bias vectors after a reshape to one row, the centroids as they are.
-/
import proofs.«126445_j20444044329188_2_alg».proof.Proof.Gen.KernelIdeal.Frame
import proofs.«126445_j20444044329188_2_alg».proof.Proof.Sweep
import proofs.«126445_j20444044329188_2_alg».proof.Proof.Payloads
import Idealize.ShloMosaic.Lib.StableHlo.Run

set_option maxRecDepth 16384

noncomputable section

namespace Cert.KernelIdeal.Blocks

open Cert.KernelIdeal Cert.KernelIdeal.Gen Cert.KernelIdeal.Sweep Cert.KernelIdeal.Payloads
open Idealize.ShloMosaic Idealize.ShloMosaic.TcCoe Idealize.ShloMosaic.ValueIdx Idealize.SL.Sem Cert.Pooling

variable (m : (ℓ : Loc nD τ sig) → Buf (Elt Ideal) ℓ)

/-- Row r of chunk q of a block is row 1024·q + r of the block. -/
theorem tok_chunk (x0 : Vec Ideal S1x4096x512 .f32) (q : Fin k0_t1_loop.trips) (r : Fin 1024) :
    tok (chunk x0 q) r = tok x0 (⟨1024 * q.val + r.val, by have := q.isLt; have h := trips_eq; omega⟩ : Fin 4096) := by
  funext k
  unfold tok chunk
  show x0 ((Rect.unit (s := S1x4096x512) (k0_off1 q) S1x1024x512.size (Gen.k0_off1_inb q)).idx (ix3 (0 : Fin 1) r k)) = x0 _
  refine congrArg x0 (funext fun a => Fin.ext ?_)
  have e := Gen.k0_off1_eq q
  match a with
  | ⟨0, _⟩ => show (k0_off1 q) 0 + 1 * 0 = 0; rw [e]; rfl
  | ⟨1, _⟩ => show (k0_off1 q) 1 + 1 * r.val = 1024 * q.val + r.val; rw [e]; show 1024 * q.val + 1 * r.val = _; omega
  | ⟨2, _⟩ => show (k0_off1 q) 2 + 1 * k.val = k.val; rw [e]; show 0 + 1 * k.val = _; omega

/-- Where the windows sit at each grid point. -/
theorem idx0 : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)
theorem idx15 : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)
theorem idx6 : ∀ t : Fin cfg0.N, win0_6.index t (0 : Fin 3) = t.val / 2 ∧ win0_6.index t (1 : Fin 3) = 0
    ∧ win0_6.index t (2 : Fin 3) = 0 :=
  (by decide +kernel : ∀ t : Fin grid0.N, _)

/-- Row n of the token block at point t is row 4096·(t mod 2) + n of batch element t / 2. -/
theorem tok_block (c : Dev nD) (t : Fin cfg0.N) (n : Fin 4096) :
    tok (iblk m c 0 t) n = fun k => V m c main_arg0 (ix3
      (⟨t.val / 2, by have := t.isLt; have h : cfg0.N = 64 := N_0; omega⟩ : Fin 32)
      (⟨4096 * (t.val % 2) + n.val, by have := n.isLt; omega⟩ : Fin 8192) k) := by
  funext k
  obtain ⟨e0, e1, e2⟩ := idx0 t
  show V m c main_arg0 (((cfg0.win 0).blk t).view.emb (ix3 (0 : Fin 1) n k)) = _
  refine congrArg (V m c main_arg0) (funext fun a => Fin.ext ?_)
  match a with
  | ⟨0, _⟩ => show win0_0.index t (0 : Fin 3) * 1 + 1 * 0 = t.val / 2; omega
  | ⟨1, _⟩ => show win0_0.index t (1 : Fin 3) * 4096 + 1 * n.val = 4096 * (t.val % 2) + n.val; omega
  | ⟨2, _⟩ => show win0_0.index t (2 : Fin 3) * 512 + 1 * k.val = k.val; omega

/-- The five small operands are staged whole. -/
theorem block1 (c : Dev nD) (t : Fin cfg0.N) (y : S64x512.Idx) : iblk m c 1 t y = V m c main_v0 y := by
  obtain ⟨e0, e1, -⟩ := idx15 t
  show V m c main_v0 (((cfg0.win 1).blk t).view.emb y) = _
  refine congrArg (V m c main_v0) (funext fun a => Fin.ext ?_)
  match a with
  | ⟨0, _⟩ => show win0_1.index t (0 : Fin 2) * 64 + 1 * (y 0).val = (y 0).val; omega
  | ⟨1, _⟩ => show win0_1.index t (1 : Fin 2) * 512 + 1 * (y 1).val = (y 1).val; omega
theorem block2 (c : Dev nD) (t : Fin cfg0.N) (y : S1x64.Idx) : iblk m c 2 t y = V m c main_v2 y := by
  obtain ⟨-, -, e0, e1, -⟩ := idx15 t
  show V m c main_v2 (((cfg0.win 2).blk t).view.emb y) = _
  refine congrArg (V m c main_v2) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem block3 (c : Dev nD) (t : Fin cfg0.N) (y : S8x64.Idx) : iblk m c 3 t y = V m c main_v1 y := by
  obtain ⟨-, -, -, -, e0, e1, -⟩ := idx15 t
  show V m c main_v1 (((cfg0.win 3).blk t).view.emb y) = _
  refine congrArg (V m c main_v1) (funext fun a => Fin.ext ?_)
  match a with
  | ⟨0, _⟩ => show win0_3.index t (0 : Fin 2) * 8 + 1 * (y 0).val = (y 0).val; omega
  | ⟨1, _⟩ => show win0_3.index t (1 : Fin 2) * 64 + 1 * (y 1).val = (y 1).val; omega
theorem block4 (c : Dev nD) (t : Fin cfg0.N) (y : S1x8.Idx) : iblk m c 4 t y = V m c main_v3 y := by
  obtain ⟨-, -, -, -, -, -, e0, e1, -⟩ := idx15 t
  show V m c main_v3 (((cfg0.win 4).blk t).view.emb y) = _
  refine congrArg (V m c main_v3) (funext fun a => Fin.ext ?_)
  match a with
  | ⟨0, _⟩ => show win0_4.index t (0 : Fin 2) * 1 + 1 * (y 0).val = (y 0).val; omega
  | ⟨1, _⟩ => show win0_4.index t (1 : Fin 2) * 8 + 1 * (y 1).val = (y 1).val; omega
theorem block5 (c : Dev nD) (t : Fin cfg0.N) (y : S8x64.Idx) : iblk m c 5 t y = V m c main_arg6 y := by
  obtain ⟨-, -, -, -, -, -, -, -, e0, e1⟩ := idx15 t
  show V m c main_arg6 (((cfg0.win 5).blk t).view.emb y) = _
  refine congrArg (V m c main_arg6) (funext fun a => Fin.ext ?_)
  match a with
  | ⟨0, _⟩ => show win0_5.index t (0 : Fin 2) * 8 + 1 * (y 0).val = (y 0).val; omega
  | ⟨1, _⟩ => show win0_5.index t (1 : Fin 2) * 64 + 1 * (y 1).val = (y 1).val; omega

/-- The arrays the host lines before the call prepare. -/
theorem V_v0 (c : Dev nD) : (V m c main_v0 : S64x512.Idx → EReal) = m ((c : Thread nD τ).loc main_arg2) := by
  show StableHlo.after hostOps0 (fun b => m (c, b)) (Proc.devRef .tc main_v0) = _
  after_results
  rfl
theorem V_v1 (c : Dev nD) : (V m c main_v1 : S8x64.Idx → EReal) = m ((c : Thread nD τ).loc main_arg4) := by
  show StableHlo.after hostOps0 (fun b => m (c, b)) (Proc.devRef .tc main_v1) = _
  after_results
  rfl
theorem V_v2 (c : Dev nD) : (V m c main_v2 : S1x64.Idx → EReal)
    = shapeCast S1x64 (m ((c : Thread nD τ).loc main_arg3) : S64.Idx → EReal) shapeCasts_S64_S1x64 := by
  show StableHlo.after hostOps0 (fun b => m (c, b)) (Proc.devRef .tc main_v2) = _
  after_results
  rfl
theorem V_v3 (c : Dev nD) : (V m c main_v3 : S1x8.Idx → EReal)
    = shapeCast S1x8 (m ((c : Thread nD τ).loc main_arg5) : S8.Idx → EReal) shapeCasts_S8_S1x8 := by
  show StableHlo.after hostOps0 (fun b => m (c, b)) (Proc.devRef .tc main_v3) = _
  after_results
  rfl

end Cert.KernelIdeal.Blocks

end
-- ==== Proof.Sums.lean ====
/-
  Two sweeps of four passes are one sum over the 8192 tokens.

  The even grid point of a batch element clears the two running buffers and adds the contributions of its four
  chunks; the odd point adds four more and finalizes.  Entry (k, j) of the 8×64 buffer therefore ends at
  ((((0 + S₀₀) + S₀₁) + S₀₂) + S₀₃) + S₁₀ + S₁₁ + S₁₂ + S₁₃, S_pq the sum over the 1024 rows of chunk q of half p of
  assignment_k · descriptor_j — the sum over all tokens, since addition on the extended reals commutes and
  associates.  The same for the 8×1 buffer, without the descriptor factor.
-/
import proofs.«126445_j20444044329188_2_alg».proof.Proof.Sweep
import proofs.«126445_j20444044329188_2_alg».proof.Proof.Payloads

set_option maxRecDepth 16384

noncomputable section

open scoped BigOperators

namespace Cert.KernelIdeal.Sums

open Cert.KernelIdeal Cert.KernelIdeal.Gen Cert.KernelIdeal.Sweep Cert.KernelIdeal.Payloads
open Idealize.ShloMosaic Idealize.ShloMosaic.ValueIdx Cert.Pooling

/-- Entry (k, j) of the 8×64 buffer after the four passes. -/
theorem acc_after (x0 : Vec Ideal S1x4096x512 .f32) (w1 : Vec Ideal S64x512 .bf16) (b1 : Vec Ideal S1x64 .f32)
    (w2 : Vec Ideal S8x64 .bf16) (b2 : Vec Ideal S1x8 .f32) (a0 : Vec Ideal S8x64 .f32) (s0 : Vec Ideal S8x1 .f32)
    (k : Fin 8) (j : Fin 64) :
    (after x0 w1 b1 w2 b2 a0 s0 k0_t1_loop.trips).1 (ix2 k j)
      = a0 (ix2 k j)
        + (∑ r : Fin 1024, asg (mat w1) (row b1) (mat w2) (row b2) (tok (chunk x0 q0) r) k * desc (mat w1) (row b1) (tok (chunk x0 q0) r) j)
        + (∑ r : Fin 1024, asg (mat w1) (row b1) (mat w2) (row b2) (tok (chunk x0 q1) r) k * desc (mat w1) (row b1) (tok (chunk x0 q1) r) j)
        + (∑ r : Fin 1024, asg (mat w1) (row b1) (mat w2) (row b2) (tok (chunk x0 q2) r) k * desc (mat w1) (row b1) (tok (chunk x0 q2) r) j)
        + (∑ r : Fin 1024, asg (mat w1) (row b1) (mat w2) (row b2) (tok (chunk x0 q3) r) k * desc (mat w1) (row b1) (tok (chunk x0 q3) r) j) := by
  rw [after_trips]
  simp only [accStep, pay11_apply, pay3_eq, pay4_eq, pay5_eq, pay6_eq]

/-- Entry k of the 8×1 buffer after the four passes. -/
theorem tot_after (x0 : Vec Ideal S1x4096x512 .f32) (w1 : Vec Ideal S64x512 .bf16) (b1 : Vec Ideal S1x64 .f32)
    (w2 : Vec Ideal S8x64 .bf16) (b2 : Vec Ideal S1x8 .f32) (a0 : Vec Ideal S8x64 .f32) (s0 : Vec Ideal S8x1 .f32)
    (k : Fin 8) (z : Fin 1) :
    (after x0 w1 b1 w2 b2 a0 s0 k0_t1_loop.trips).2 (ix2 k z)
      = s0 (ix2 k z)
        + (∑ r : Fin 1024, asg (mat w1) (row b1) (mat w2) (row b2) (tok (chunk x0 q0) r) k)
        + (∑ r : Fin 1024, asg (mat w1) (row b1) (mat w2) (row b2) (tok (chunk x0 q1) r) k)
        + (∑ r : Fin 1024, asg (mat w1) (row b1) (mat w2) (row b2) (tok (chunk x0 q2) r) k)
        + (∑ r : Fin 1024, asg (mat w1) (row b1) (mat w2) (row b2) (tok (chunk x0 q3) r) k) := by
  rw [after_trips]
  simp only [sumStep, pay7_apply, pay3_eq, pay4_eq, pay5_eq, pay6_eq]

/-- The even point's block xe and the odd point's block xo hold the two halves of the token rows X. -/
structure Halves (xe xo : Vec Ideal S1x4096x512 .f32) (X : Fin 8192 → Fin 512 → EReal) : Prop where
  even : ∀ (q : Fin k0_t1_loop.trips) (r : Fin 1024),
    tok (chunk xe q) r = X (token 0 ⟨q.val, by have := q.isLt; have h := trips_eq; omega⟩ r)
  odd : ∀ (q : Fin k0_t1_loop.trips) (r : Fin 1024),
    tok (chunk xo q) r = X (token 1 ⟨q.val, by have := q.isLt; have h := trips_eq; omega⟩ r)

/-- After both points the 8×64 buffer holds, at (k, j), the sum over all tokens of assignment_k · descriptor_j. -/
theorem acc_both (xe xo : Vec Ideal S1x4096x512 .f32) (X : Fin 8192 → Fin 512 → EReal) (hX : Halves xe xo X)
    (w1 : Vec Ideal S64x512 .bf16) (b1 : Vec Ideal S1x64 .f32) (w2 : Vec Ideal S8x64 .bf16) (b2 : Vec Ideal S1x8 .f32)
    (k : Fin 8) (j : Fin 64) :
    (after xo w1 b1 w2 b2 (after xe w1 b1 w2 b2 (k0_pay1 (F := Ideal)) (k0_pay2 (F := Ideal)) k0_t1_loop.trips).1
        (after xe w1 b1 w2 b2 (k0_pay1 (F := Ideal)) (k0_pay2 (F := Ideal)) k0_t1_loop.trips).2 k0_t1_loop.trips).1 (ix2 k j)
      = ∑ n : Fin 8192, asg (mat w1) (row b1) (mat w2) (row b2) (X n) k * desc (mat w1) (row b1) (X n) j := by
  rw [acc_after, acc_after, pay1_apply]
  simp only [hX.even, hX.odd]
  rw [sum_tokens (fun n => asg (mat w1) (row b1) (mat w2) (row b2) (X n) k * desc (mat w1) (row b1) (X n) j)]
  exact two_sweeps (fun p q => ∑ r : Fin 1024, asg (mat w1) (row b1) (mat w2) (row b2) (X (token p q r)) k
    * desc (mat w1) (row b1) (X (token p q r)) j)

/-- And the 8×1 buffer, at k, the sum over all tokens of assignment_k. -/
theorem tot_both (xe xo : Vec Ideal S1x4096x512 .f32) (X : Fin 8192 → Fin 512 → EReal) (hX : Halves xe xo X)
    (w1 : Vec Ideal S64x512 .bf16) (b1 : Vec Ideal S1x64 .f32) (w2 : Vec Ideal S8x64 .bf16) (b2 : Vec Ideal S1x8 .f32)
    (k : Fin 8) (z : Fin 1) :
    (after xo w1 b1 w2 b2 (after xe w1 b1 w2 b2 (k0_pay1 (F := Ideal)) (k0_pay2 (F := Ideal)) k0_t1_loop.trips).1
        (after xe w1 b1 w2 b2 (k0_pay1 (F := Ideal)) (k0_pay2 (F := Ideal)) k0_t1_loop.trips).2 k0_t1_loop.trips).2 (ix2 k z)
      = ∑ n : Fin 8192, asg (mat w1) (row b1) (mat w2) (row b2) (X n) k := by
  rw [tot_after, tot_after, pay2_apply]
  simp only [hX.even, hX.odd]
  rw [sum_tokens (fun n => asg (mat w1) (row b1) (mat w2) (row b2) (X n) k)]
  exact two_sweeps (fun p q => ∑ r : Fin 1024, asg (mat w1) (row b1) (mat w2) (row b2) (X (token p q r)) k)

/-- The output block the odd point stores: the pooled block of the batch element. -/
theorem out_both (xe xo : Vec Ideal S1x4096x512 .f32) (X : Fin 8192 → Fin 512 → EReal) (hX : Halves xe xo X)
    (w1 : Vec Ideal S64x512 .bf16) (b1 : Vec Ideal S1x64 .f32) (w2 : Vec Ideal S8x64 .bf16) (b2 : Vec Ideal S1x8 .f32)
    (ce : Vec Ideal S8x64 .f32) (u : Fin 1) (k : Fin 8) (j : Fin 64) :
    k0_pay8 ce
        (after xo w1 b1 w2 b2 (after xe w1 b1 w2 b2 (k0_pay1 (F := Ideal)) (k0_pay2 (F := Ideal)) k0_t1_loop.trips).1
          (after xe w1 b1 w2 b2 (k0_pay1 (F := Ideal)) (k0_pay2 (F := Ideal)) k0_t1_loop.trips).2 k0_t1_loop.trips).1
        (after xo w1 b1 w2 b2 (after xe w1 b1 w2 b2 (k0_pay1 (F := Ideal)) (k0_pay2 (F := Ideal)) k0_t1_loop.trips).1
          (after xe w1 b1 w2 b2 (k0_pay1 (F := Ideal)) (k0_pay2 (F := Ideal)) k0_t1_loop.trips).2 k0_t1_loop.trips).2 (ix3 u k j)
      = pooledOf (mat w1) (row b1) (mat w2) (row b2) (mat ce) X k j := by
  rw [pay8_apply]
  simp only [acc_both xe xo X hX, tot_both xe xo X hX]
  rfl

end Cert.KernelIdeal.Sums

end
-- ==== Proof.KernelValue.lean ====
/-
  The array the kernel leaves, as one function of the argument arrays.

  The odd grid point 2·b + 1 stores, as block b of the result, the pooled block of batch element b: the two
  running buffers it finalizes hold the sums over all 8192 token rows of that batch element (the even point before
  it having started them from zero).  Those blocks tile the 32×8×64 result, which the host line after the call
  reshapes to 32×512.
-/
import proofs.«126445_j20444044329188_2_alg».proof.Proof.Gen.KernelIdeal.Frame
import proofs.«126445_j20444044329188_2_alg».proof.Proof.Sweep
import proofs.«126445_j20444044329188_2_alg».proof.Proof.Payloads
import proofs.«126445_j20444044329188_2_alg».proof.Proof.Blocks
import proofs.«126445_j20444044329188_2_alg».proof.Proof.Sums
import Idealize.ShloMosaic.Lib.StableHlo.Run
import Idealize.ShloMosaic.Lib.ValueLayout

set_option maxRecDepth 16384

noncomputable section

open scoped BigOperators

namespace Cert.KernelIdeal.KernelValue

open Cert.KernelIdeal Cert.KernelIdeal.Gen Cert.KernelIdeal.Sweep Cert.KernelIdeal.Payloads Cert.KernelIdeal.Blocks
open Cert.KernelIdeal.Sums
open Idealize.ShloMosaic Idealize.ShloMosaic.TcCoe Idealize.ShloMosaic.ValueIdx Idealize.SL.Sem Cert.Pooling

variable (m : (ℓ : Loc nD τ sig) → Buf (Elt Ideal) ℓ)

theorem ix3_congr {n0 n1 n2 : ℕ} {a a' : Fin n0} {b b' : Fin n1} (c : Fin n2) (ha : a = a') (hb : b = b') :
    ix3 a b c = ix3 a' b' c := by subst ha hb; rfl

/-- The 8192 token rows of batch element b. -/
def rowsOf (c : Dev nD) (b : Fin 32) (n : Fin 8192) (k : Fin 512) : EReal :=
  m ((c : Thread nD τ).loc main_arg0) (ix3 b n k)

/-- The pooled block of batch element b, from the six argument arrays. -/
def pooledArr (c : Dev nD) (b : Fin 32) (k : Fin 8) (j : Fin 64) : EReal :=
  pooledOf (mat (m ((c : Thread nD τ).loc main_arg2))) (fun j => m ((c : Thread nD τ).loc main_arg3) (ix1 j))
    (mat (m ((c : Thread nD τ).loc main_arg4))) (fun k => m ((c : Thread nD τ).loc main_arg5) (ix1 k))
    (mat (m ((c : Thread nD τ).loc main_arg6))) (rowsOf m c b) k j

/-- The even point 2·b and the odd point 2·b + 1 see the two halves of batch element b's token rows. -/
theorem halves (c : Dev nD) (t : Fin cfg0.N) (h1 : t.val % 2 = 1) :
    Halves (iblk m c 0 ⟨t.val - 1, lt_of_le_of_lt (Nat.sub_le _ _) t.isLt⟩) (iblk m c 0 t)
      (rowsOf m c ⟨t.val / 2, by have := t.isLt; have h : cfg0.N = 64 := N_0; omega⟩) := by
  have hN : t.val < 64 := lt_of_lt_of_eq t.isLt (show cfg0.N = 64 from N_0)
  constructor
  · intro q r
    have hq : q.val < 4 := lt_of_lt_of_eq q.isLt trips_eq
    refine (tok_chunk _ q r).trans ((tok_block m c _ _).trans ?_)
    funext k
    unfold rowsOf
    rw [V_main_arg0]
    refine congrArg _ (ix3_congr k (Fin.ext ?_) (Fin.ext ?_))
    · show (t.val - 1) / 2 = t.val / 2; omega
    · show 4096 * ((t.val - 1) % 2) + (1024 * q.val + r.val) = 4096 * 0 + 1024 * q.val + r.val; omega
  · intro q r
    have hq : q.val < 4 := lt_of_lt_of_eq q.isLt trips_eq
    refine (tok_chunk _ q r).trans ((tok_block m c _ _).trans ?_)
    funext k
    unfold rowsOf
    rw [V_main_arg0]
    refine congrArg _ (ix3_congr k (Fin.ext ?_) (Fin.ext ?_))
    · rfl
    · show 4096 * (t.val % 2) + (1024 * q.val + r.val) = 4096 * 1 + 1024 * q.val + r.val; omega

/-- The finalized block over two sweeps whose small operands are equal. -/
theorem out_core (xe xo : Vec Ideal S1x4096x512 .f32) (X : Fin 8192 → Fin 512 → EReal) (hX : Halves xe xo X)
    (w1e w1o : Vec Ideal S64x512 .bf16) (b1e b1o : Vec Ideal S1x64 .f32) (w2e w2o : Vec Ideal S8x64 .bf16) (b2e b2o : Vec Ideal S1x8 .f32)
    (h1 : w1e = w1o) (h2 : b1e = b1o) (h3 : w2e = w2o) (h4 : b2e = b2o)
    (ce : Vec Ideal S8x64 .f32) (a0 : Vec Ideal S8x64 .f32) (s0 : Vec Ideal S8x1 .f32)
    (ha : a0 = (after xe w1e b1e w2e b2e (k0_pay1 (F := Ideal)) (k0_pay2 (F := Ideal)) k0_t1_loop.trips).1)
    (hs : s0 = (after xe w1e b1e w2e b2e (k0_pay1 (F := Ideal)) (k0_pay2 (F := Ideal)) k0_t1_loop.trips).2)
    (u : Fin 1) (k : Fin 8) (j : Fin 64) :
    k0_pay8 ce (after xo w1o b1o w2o b2o a0 s0 k0_t1_loop.trips).1 (after xo w1o b1o w2o b2o a0 s0 k0_t1_loop.trips).2 (ix3 u k j)
      = pooledOf (mat w1o) (row b1o) (mat w2o) (row b2o) (mat ce) X k j := by
  subst h1 h2 h3 h4 ha hs
  exact out_both xe xo X hX _ _ _ _ ce u k j

/-- What the odd point 2·b + 1 leaves in the output's staging buffer: the pooled block of batch element b. -/
theorem block_value (c : Dev nD) (t : Fin cfg0.N) (h1 : t.val % 2 = 1) (u : Fin 1) (k : Fin 8) (j : Fin 64) :
    (outsAt0 m c t.val t.isLt).1 (ix3 u k j)
      = pooledArr m c ⟨t.val / 2, by have := t.isLt; have h : cfg0.N = 64 := N_0; omega⟩ k j := by
  have hN : t.val < 64 := lt_of_lt_of_eq t.isLt (show cfg0.N = 64 from N_0)
  have h0 : ¬ t.val % 2 = 0 := by omega
  have hA := outsAt0_A m c ⟨t.val - 1, lt_of_le_of_lt (Nat.sub_le _ _) t.isLt⟩
    (show (t.val - 1) % 2 = 0 by omega) (show ¬ (t.val - 1) % 2 = 1 by omega)
  rw [outsAt0_B m c t h0 h1]
  dsimp only
  refine (congrFun (odd_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) _ _ (iblk m c 0 t) (iblk m c 1 t) (iblk m c 2 t) (iblk m c 3 t) (iblk m c 4 t) (iblk m c 5 t) _ _) (ix3 u k j)).trans ?_
  refine (out_core (iblk m c 0 ⟨t.val - 1, lt_of_le_of_lt (Nat.sub_le _ _) t.isLt⟩) (iblk m c 0 t) _ (halves m c t h1)
    (iblk m c 1 ⟨t.val - 1, lt_of_le_of_lt (Nat.sub_le _ _) t.isLt⟩) (iblk m c 1 t)
    (iblk m c 2 ⟨t.val - 1, lt_of_le_of_lt (Nat.sub_le _ _) t.isLt⟩) (iblk m c 2 t)
    (iblk m c 3 ⟨t.val - 1, lt_of_le_of_lt (Nat.sub_le _ _) t.isLt⟩) (iblk m c 3 t)
    (iblk m c 4 ⟨t.val - 1, lt_of_le_of_lt (Nat.sub_le _ _) t.isLt⟩) (iblk m c 4 t)
    (funext fun y => (block1 m c _ y).trans (block1 m c t y).symm)
    (funext fun y => (block2 m c _ y).trans (block2 m c t y).symm)
    (funext fun y => (block3 m c _ y).trans (block3 m c t y).symm)
    (funext fun y => (block4 m c _ y).trans (block4 m c t y).symm)
    (iblk m c 5 t) _ _ ?_ ?_ u k j).trans ?_
  · exact (congrArg (fun p => p.2.1) hA).trans (even_acc c _ (ms0_0 ⟨t.val - 1, lt_of_le_of_lt (Nat.sub_le _ _) t.isLt⟩) (hs0_0 ⟨t.val - 1, lt_of_le_of_lt (Nat.sub_le _ _) t.isLt⟩) (ms0_1 ⟨t.val - 1, lt_of_le_of_lt (Nat.sub_le _ _) t.isLt⟩) (hs0_1 ⟨t.val - 1, lt_of_le_of_lt (Nat.sub_le _ _) t.isLt⟩) (ms0_2 ⟨t.val - 1, lt_of_le_of_lt (Nat.sub_le _ _) t.isLt⟩) (hs0_2 ⟨t.val - 1, lt_of_le_of_lt (Nat.sub_le _ _) t.isLt⟩) (ms0_3 ⟨t.val - 1, lt_of_le_of_lt (Nat.sub_le _ _) t.isLt⟩) (hs0_3 ⟨t.val - 1, lt_of_le_of_lt (Nat.sub_le _ _) t.isLt⟩) (ms0_4 ⟨t.val - 1, lt_of_le_of_lt (Nat.sub_le _ _) t.isLt⟩) (hs0_4 ⟨t.val - 1, lt_of_le_of_lt (Nat.sub_le _ _) t.isLt⟩) (ms0_5 ⟨t.val - 1, lt_of_le_of_lt (Nat.sub_le _ _) t.isLt⟩) (hs0_5 ⟨t.val - 1, lt_of_le_of_lt (Nat.sub_le _ _) t.isLt⟩) (ms0_6 ⟨t.val - 1, lt_of_le_of_lt (Nat.sub_le _ _) t.isLt⟩) (hs0_6 ⟨t.val - 1, lt_of_le_of_lt (Nat.sub_le _ _) t.isLt⟩) scM0_0 (Memref.isWhole_whole _) scM0_1 (Memref.isWhole_whole _) _ _ (iblk m c 0 ⟨t.val - 1, lt_of_le_of_lt (Nat.sub_le _ _) t.isLt⟩) (iblk m c 1 ⟨t.val - 1, lt_of_le_of_lt (Nat.sub_le _ _) t.isLt⟩) (iblk m c 2 ⟨t.val - 1, lt_of_le_of_lt (Nat.sub_le _ _) t.isLt⟩) (iblk m c 3 ⟨t.val - 1, lt_of_le_of_lt (Nat.sub_le _ _) t.isLt⟩) (iblk m c 4 ⟨t.val - 1, lt_of_le_of_lt (Nat.sub_le _ _) t.isLt⟩) (iblk m c 5 ⟨t.val - 1, lt_of_le_of_lt (Nat.sub_le _ _) t.isLt⟩))
  · exact (congrArg (fun p => p.2.2) hA).trans (even_tot c _ (ms0_0 ⟨t.val - 1, lt_of_le_of_lt (Nat.sub_le _ _) t.isLt⟩) (hs0_0 ⟨t.val - 1, lt_of_le_of_lt (Nat.sub_le _ _) t.isLt⟩) (ms0_1 ⟨t.val - 1, lt_of_le_of_lt (Nat.sub_le _ _) t.isLt⟩) (hs0_1 ⟨t.val - 1, lt_of_le_of_lt (Nat.sub_le _ _) t.isLt⟩) (ms0_2 ⟨t.val - 1, lt_of_le_of_lt (Nat.sub_le _ _) t.isLt⟩) (hs0_2 ⟨t.val - 1, lt_of_le_of_lt (Nat.sub_le _ _) t.isLt⟩) (ms0_3 ⟨t.val - 1, lt_of_le_of_lt (Nat.sub_le _ _) t.isLt⟩) (hs0_3 ⟨t.val - 1, lt_of_le_of_lt (Nat.sub_le _ _) t.isLt⟩) (ms0_4 ⟨t.val - 1, lt_of_le_of_lt (Nat.sub_le _ _) t.isLt⟩) (hs0_4 ⟨t.val - 1, lt_of_le_of_lt (Nat.sub_le _ _) t.isLt⟩) (ms0_5 ⟨t.val - 1, lt_of_le_of_lt (Nat.sub_le _ _) t.isLt⟩) (hs0_5 ⟨t.val - 1, lt_of_le_of_lt (Nat.sub_le _ _) t.isLt⟩) (ms0_6 ⟨t.val - 1, lt_of_le_of_lt (Nat.sub_le _ _) t.isLt⟩) (hs0_6 ⟨t.val - 1, lt_of_le_of_lt (Nat.sub_le _ _) t.isLt⟩) scM0_0 (Memref.isWhole_whole _) scM0_1 (Memref.isWhole_whole _) _ _ (iblk m c 0 ⟨t.val - 1, lt_of_le_of_lt (Nat.sub_le _ _) t.isLt⟩) (iblk m c 1 ⟨t.val - 1, lt_of_le_of_lt (Nat.sub_le _ _) t.isLt⟩) (iblk m c 2 ⟨t.val - 1, lt_of_le_of_lt (Nat.sub_le _ _) t.isLt⟩) (iblk m c 3 ⟨t.val - 1, lt_of_le_of_lt (Nat.sub_le _ _) t.isLt⟩) (iblk m c 4 ⟨t.val - 1, lt_of_le_of_lt (Nat.sub_le _ _) t.isLt⟩) (iblk m c 5 ⟨t.val - 1, lt_of_le_of_lt (Nat.sub_le _ _) t.isLt⟩))
  · unfold pooledArr
    have e1 : mat (iblk m c 1 t) = mat (m ((c : Thread nD τ).loc main_arg2)) :=
      funext fun i => funext fun j' => (block1 m c t _).trans (congrFun (V_v0 m c) _)
    have e2 : row (iblk m c 2 t) = fun j' => m ((c : Thread nD τ).loc main_arg3) (ix1 j') :=
      funext fun j' => (block2 m c t _).trans ((congrFun (V_v2 m c) _).trans (shapeCast_a_1a_apply _ _ 0 j'))
    have e3 : mat (iblk m c 3 t) = mat (m ((c : Thread nD τ).loc main_arg4)) :=
      funext fun i => funext fun j' => (block3 m c t _).trans (congrFun (V_v1 m c) _)
    have e4 : row (iblk m c 4 t) = fun k' => m ((c : Thread nD τ).loc main_arg5) (ix1 k') :=
      funext fun k' => (block4 m c t _).trans ((congrFun (V_v3 m c) _).trans (shapeCast_a_1a_apply _ _ 0 k'))
    have e5 : mat (iblk m c 5 t) = mat (m ((c : Thread nD τ).loc main_arg6)) :=
      funext fun i => funext fun j' => (block5 m c t _).trans (congrFun (V_main_arg6 m c) _)
    rw [e1, e2, e3, e4, e5]

theorem pooledArr_congr (c : Dev nD) {b b' : Fin 32} {k k' : Fin 8} {j j' : Fin 64} (hb : b = b') (hk : k = k') (hj : j = j') :
    pooledArr m c b k j = pooledArr m c b' k' j' := by subst hb hk hj; rfl

/-- The result array [32, 8, 64] of the call: block b is the pooled block of batch element b. -/
def G3 (c : Dev nD) : S32x8x64.Idx → EReal := fun i => pooledArr m c (i 0) (i 1) (i 2)

/-- What an odd point writes back is its block of that array. -/
theorem flushed_eq (c : Dev nD) (t : Fin cfg0.N) (hf : (cfg0.win 6).flush t = true) :
    (dats m 0 c).flushed 6 t = ((cfg0.win 6).blk t).view.read (Elt Ideal) (G3 m c) := by
  have h1 : t.val % 2 = 1 := (flush0_6 t).mp hf
  obtain ⟨e0, e1, e2⟩ := idx6 t
  show (cfg0.win 6).cut (grid0.coords t) ((dats m 0 c).after 6 t) = _
  rw [after0_6]
  funext y
  obtain ⟨u, k, j, rfl⟩ : ∃ (u : Fin 1) (k : Fin 8) (j : Fin 64), y = ix3 u k j := ⟨y 0, y 1, y 2, eq_ix3 y⟩
  show (outsAt0 m c t.val t.isLt).1 (ix3 u k j) = G3 m c (((cfg0.win 6).blk t).view.emb (ix3 u k j))
  rw [block_value m c t h1]
  unfold G3
  refine pooledArr_congr m c (Fin.ext ?_) (Fin.ext ?_) (Fin.ext ?_)
  · show t.val / 2 = win0_6.index t (0 : Fin 3) * 1 + 1 * u.val
    have := u.isLt; omega
  · show k.val = win0_6.index t (1 : Fin 3) * 8 + 1 * k.val
    omega
  · show j.val = win0_6.index t (2 : Fin 3) * 64 + 1 * j.val
    omega

/-- An index of the array is in point t's block iff each coordinate is in the block's range on its axis. -/
theorem mem_blk6 (t : Fin cfg0.N) (i : S32x8x64.Idx) :
    i ∈ ((cfg0.win 6).blk t).view.set ↔ ∀ a : Fin 3, win0_6.index t a * S1x8x64.size a ≤ (i a).val
      ∧ (i a).val < win0_6.index t a * S1x8x64.size a + S1x8x64.size a := by
  show i ∈ ((View.whole main_v4).slice (win0_6.rect t)).set ↔ _
  rw [View.set_slice_whole, Rect.mem_set_unit]
  exact Iff.rfl

/-- Every entry of the array is in the block some odd point writes back. -/
theorem covered (i : S32x8x64.Idx) :
    ∃ t : Fin cfg0.N, (cfg0.win 6).flush t = true ∧ i ∈ ((cfg0.win 6).blk t).view.set := by
  have hi0 : (i 0).val < 32 := (i 0).isLt
  have hi1 : (i 1).val < 8 := (i 1).isLt
  have hi2 : (i 2).val < 64 := (i 2).isLt
  have hN : cfg0.N = 64 := N_0
  have ht : 2 * (i 0).val + 1 < cfg0.N := by omega
  refine ⟨⟨2 * (i 0).val + 1, ht⟩, (flush0_6 _).mpr (by show (2 * (i 0).val + 1) % 2 = 1; omega), ?_⟩
  rw [mem_blk6]
  obtain ⟨e0, e1, e2⟩ := idx6 ⟨2 * (i 0).val + 1, ht⟩
  have e0' : win0_6.index ⟨2 * (i 0).val + 1, ht⟩ (0 : Fin 3) = (2 * (i 0).val + 1) / 2 := e0
  intro a
  match a with
  | ⟨0, _⟩ =>
    show win0_6.index ⟨2 * (i 0).val + 1, ht⟩ (0 : Fin 3) * 1 ≤ (i 0).val
      ∧ (i 0).val < win0_6.index ⟨2 * (i 0).val + 1, ht⟩ (0 : Fin 3) * 1 + 1
    omega
  | ⟨1, _⟩ =>
    show win0_6.index ⟨2 * (i 0).val + 1, ht⟩ (1 : Fin 3) * 8 ≤ (i 1).val
      ∧ (i 1).val < win0_6.index ⟨2 * (i 0).val + 1, ht⟩ (1 : Fin 3) * 8 + 8
    omega
  | ⟨2, _⟩ =>
    show win0_6.index ⟨2 * (i 0).val + 1, ht⟩ (2 : Fin 3) * 64 ≤ (i 2).val
      ∧ (i 2).val < win0_6.index ⟨2 * (i 0).val + 1, ht⟩ (2 : Fin 3) * 64 + 64
    omega

/-- The result array after the call. -/
theorem final (c : Dev nD) : (dats m 0 c).arrAt 6 cfg0.N = G3 m c :=
  (dats m 0 c).arrAt_eq_of_cover 6 (G3 m c) (fun t hf => flushed_eq m c t hf) covered

/-- The host line after the call reshapes that array to [32, 512]. -/
theorem tail_value (c : Dev nD) :
    Pipeline.afterTail₀ cfgs (dats m) 0 (V0 m) [hostOps1] c main_v5
      = shapeCast S32x512 (G3 m c) shapeCasts_S32x8x64_S32x512 := by
  unfold Pipeline.afterTail₀
  show StableHlo.after hostOps1 _ (Proc.devRef .tc main_v5) = _
  after_results
  exact congrArg (fun x => shapeCast S32x512 x shapeCasts_S32x8x64_S32x512)
    ((Pipeline.withArrays_arr spec0 launch0.win.arr_inj c _ _ 6).trans (final m c))

/-- THE KERNEL'S RUN with its result named: the pooled blocks of the 32 batch elements, flattened; the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = shapeCast S32x512 (G3 m c) shapeCasts_S32x8x64_S32x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c)))⟩)
    (run_main m ρ)

end Cert.KernelIdeal.KernelValue

end
-- ==== Proof.LibHostDots.lean ====
/-
  Two host contractions read at one entry, on the extended reals.

  * Rows against the transpose of a weight matrix, the rows stacked in a rank-3 array
    (`einsum('bnc,dc->bnd')`): operands [B, N, C] and [D, C], result [B, N, D]; the contracted axes are the last of
    each, there is no batch axis.  At (b, n, j) it is the sum over c : Fin C of lhs (b, n, c) · rhs (j, c).
  * A batched product contracting the MIDDLE axis of both operands (`einsum('bnk,bnd->bkd')`): operands [B, N, K]
    and [B, N, D], result [B, K, D]; the batch axis is axis 0 of both.  At (b, k, j) it is the sum over n : Fin N of
    lhs (b, n, k) · rhs (b, n, j).
  Each for any record of dimension numbers with those lists, and any extents.
-/
import Idealize.ShloMosaic.PureOps.Ideal.Laws
import Idealize.ShloMosaic.Lib.ValueIdx

noncomputable section

open scoped BigOperators

namespace Cert.Lib.HostDots

open Idealize.ShloMosaic Idealize.ShloMosaic.ValueIdx

variable {φ₁ φ₂ : FTy}

/-- A rank-3 index read at a position known to be the first, second, third is that coordinate. -/
theorem ix3_val_zero {n0 n1 n2 : Nat} (a : Fin n0) (b : Fin n1) (c : Fin n2) (p : Nat) (hp : p < 3) (h : p = 0) :
    (ix3 a b c ⟨p, hp⟩).val = a.val := by subst h; rfl
theorem ix3_val_one {n0 n1 n2 : Nat} (a : Fin n0) (b : Fin n1) (c : Fin n2) (p : Nat) (hp : p < 3) (h : p = 1) :
    (ix3 a b c ⟨p, hp⟩).val = b.val := by subst h; rfl
theorem ix3_val_two {n0 n1 n2 : Nat} (a : Fin n0) (b : Fin n1) (c : Fin n2) (p : Nat) (hp : p < 3) (h : p = 2) :
    (ix3 a b c ⟨p, hp⟩).val = c.val := by subst h; rfl

/-- Of three axes, axis 2 is not axis 0. -/
theorem two_not_mem_zero : (2 : Fin 3) ∉ ([0] : List (Fin 3)) := by decide

/-! ## Rows against a transposed weight matrix -/

section Rows

variable {B N C D : Nat}

theorem rows_contr_rank (d : DotDims ⟨3, ![B, N, C]⟩ ⟨2, ![D, C]⟩ ⟨3, ![B, N, D]⟩) (hlc : d.lhsContracting = [2]) :
    d.contr.rank = 1 := by
  rw [d.rank_contr, hlc]; rfl

theorem rows_contr_size (d : DotDims ⟨3, ![B, N, C]⟩ ⟨2, ![D, C]⟩ ⟨3, ![B, N, D]⟩) (hlc : d.lhsContracting = [2]) :
    d.contr.size ⟨0, by rw [rows_contr_rank d hlc]; exact Nat.one_pos⟩ = C := by
  have h := d.size_contr 0 (by rw [hlc]; exact Nat.one_pos)
  rw [h]
  simp only [hlc, List.getElem_cons_zero]
  rfl

theorem rows_lhsIdx (d : DotDims ⟨3, ![B, N, C]⟩ ⟨2, ![D, C]⟩ ⟨3, ![B, N, D]⟩)
    (hlc : d.lhsContracting = [2]) (hln : d.lhsNonContracting = [0, 1]) (hlb : d.lhsBatch = [])
    (b : Fin B) (n : Fin N) (j : Fin D) (c : Fin C) :
    d.lhsIdx (ix3 b n j) ((contrEquiv1 d C (rows_contr_rank d hlc) (rows_contr_size d hlc)).symm c) = ix3 b n c := by
  have hnb : ∀ a : Fin 3, a ∉ d.lhsBatch := fun a => by rw [hlb]; exact List.not_mem_nil
  funext ax
  apply Fin.ext
  match ax with
  | ⟨0, _⟩ =>
    show (d.lhsIdx (ix3 b n j) _ (0 : Fin 3)).val = b.val
    have hn : (0 : Fin 3) ∈ d.lhsNonContracting := by rw [hln]; exact List.mem_cons_self
    unfold DotDims.lhsIdx
    rw [dif_neg (hnb 0), dif_pos hn]
    simp only [Fin.val_cast]
    exact ix3_val_zero b n j _ _ (by rw [hlb, hln]; rfl)
  | ⟨1, _⟩ =>
    show (d.lhsIdx (ix3 b n j) _ (1 : Fin 3)).val = n.val
    have hn : (1 : Fin 3) ∈ d.lhsNonContracting := by rw [hln]; exact List.mem_cons_of_mem _ List.mem_cons_self
    unfold DotDims.lhsIdx
    rw [dif_neg (hnb 1), dif_pos hn]
    simp only [Fin.val_cast]
    exact ix3_val_one b n j _ _ (by rw [hlb, hln]; rfl)
  | ⟨2, _⟩ =>
    show (d.lhsIdx (ix3 b n j) _ (2 : Fin 3)).val = c.val
    rw [DotDims.lhsIdx_val_of_single d hlc]
    exact contrEquiv1_symm_val d C (rows_contr_rank d hlc) (rows_contr_size d hlc) c

theorem rows_rhsIdx (d : DotDims ⟨3, ![B, N, C]⟩ ⟨2, ![D, C]⟩ ⟨3, ![B, N, D]⟩)
    (hlc : d.lhsContracting = [2]) (hrc : d.rhsContracting = [1]) (hln : d.lhsNonContracting = [0, 1])
    (hrn : d.rhsNonContracting = [0]) (hlb : d.lhsBatch = []) (hrb : d.rhsBatch = [])
    (b : Fin B) (n : Fin N) (j : Fin D) (c : Fin C) :
    d.rhsIdx (ix3 b n j) ((contrEquiv1 d C (rows_contr_rank d hlc) (rows_contr_size d hlc)).symm c) = ix2 j c := by
  funext ax
  apply Fin.ext
  match ax with
  | ⟨0, _⟩ =>
    show (d.rhsIdx (ix3 b n j) _ (0 : Fin 2)).val = j.val
    have hnb : (0 : Fin 2) ∉ d.rhsBatch := by rw [hrb]; exact List.not_mem_nil
    have hn : (0 : Fin 2) ∈ d.rhsNonContracting := by rw [hrn]; exact List.mem_singleton.mpr rfl
    unfold DotDims.rhsIdx
    rw [dif_neg hnb, dif_pos hn]
    simp only [Fin.val_cast]
    exact ix3_val_two b n j _ _ (by rw [hlb, hln, hrn]; rfl)
  | ⟨1, _⟩ =>
    show (d.rhsIdx (ix3 b n j) _ (1 : Fin 2)).val = c.val
    rw [DotDims.rhsIdx_val_of_single d hrc]
    exact contrEquiv1_symm_val d C (rows_contr_rank d hlc) (rows_contr_size d hlc) c

/-- THE ROWS PRODUCT read at (b, n, j). -/
theorem rows_apply (d : DotDims ⟨3, ![B, N, C]⟩ ⟨2, ![D, C]⟩ ⟨3, ![B, N, D]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule)
    (lhs : FVec Ideal ⟨3, ![B, N, C]⟩ φ₁) (rhs : FVec Ideal ⟨2, ![D, C]⟩ φ₂) (b : Fin B) (n : Fin N) (j : Fin D) :
    FloatOps.dotGeneral d prec sched lhs rhs (ix3 b n j) = ∑ c : Fin C, lhs (ix3 b n c) * rhs (ix2 j c) := by
  rw [Ideal.dotGeneral_apply]
  rw [← Equiv.sum_comp (contrEquiv1 d C (rows_contr_rank d hlc) (rows_contr_size d hlc)).symm]
  refine Finset.sum_congr rfl fun c _ => ?_
  rw [rows_lhsIdx d hlc hln hlb b n j c, rows_rhsIdx d hlc hrc hln hrn hlb hrb b n j c]

end Rows

/-! ## The batched product over the middle axis -/

section Mid

variable {B N K D : Nat}

theorem mid_contr_rank (d : DotDims ⟨3, ![B, N, K]⟩ ⟨3, ![B, N, D]⟩ ⟨3, ![B, K, D]⟩) (hlc : d.lhsContracting = [1]) :
    d.contr.rank = 1 := by
  rw [d.rank_contr, hlc]; rfl

theorem mid_contr_size (d : DotDims ⟨3, ![B, N, K]⟩ ⟨3, ![B, N, D]⟩ ⟨3, ![B, K, D]⟩) (hlc : d.lhsContracting = [1]) :
    d.contr.size ⟨0, by rw [mid_contr_rank d hlc]; exact Nat.one_pos⟩ = N := by
  have h := d.size_contr 0 (by rw [hlc]; exact Nat.one_pos)
  rw [h]
  simp only [hlc, List.getElem_cons_zero]
  rfl

theorem mid_lhsIdx (d : DotDims ⟨3, ![B, N, K]⟩ ⟨3, ![B, N, D]⟩ ⟨3, ![B, K, D]⟩)
    (hlc : d.lhsContracting = [1]) (hln : d.lhsNonContracting = [2]) (hlb : d.lhsBatch = [0])
    (b : Fin B) (k : Fin K) (j : Fin D) (n : Fin N) :
    d.lhsIdx (ix3 b k j) ((contrEquiv1 d N (mid_contr_rank d hlc) (mid_contr_size d hlc)).symm n) = ix3 b n k := by
  funext ax
  apply Fin.ext
  match ax with
  | ⟨0, _⟩ =>
    show (d.lhsIdx (ix3 b k j) _ (0 : Fin 3)).val = b.val
    have hb : (0 : Fin 3) ∈ d.lhsBatch := by rw [hlb]; exact List.mem_singleton.mpr rfl
    unfold DotDims.lhsIdx
    rw [dif_pos hb]
    simp only [Fin.val_cast]
    exact ix3_val_zero b k j _ _ (by rw [hlb]; rfl)
  | ⟨1, _⟩ =>
    show (d.lhsIdx (ix3 b k j) _ (1 : Fin 3)).val = n.val
    rw [DotDims.lhsIdx_val_of_single d hlc]
    exact contrEquiv1_symm_val d N (mid_contr_rank d hlc) (mid_contr_size d hlc) n
  | ⟨2, _⟩ =>
    show (d.lhsIdx (ix3 b k j) _ (2 : Fin 3)).val = k.val
    have hnb : (2 : Fin 3) ∉ d.lhsBatch := by rw [hlb]; exact two_not_mem_zero
    have hn : (2 : Fin 3) ∈ d.lhsNonContracting := by rw [hln]; exact List.mem_singleton.mpr rfl
    unfold DotDims.lhsIdx
    rw [dif_neg hnb, dif_pos hn]
    simp only [Fin.val_cast]
    exact ix3_val_one b k j _ _ (by rw [hlb, hln]; rfl)

theorem mid_rhsIdx (d : DotDims ⟨3, ![B, N, K]⟩ ⟨3, ![B, N, D]⟩ ⟨3, ![B, K, D]⟩)
    (hlc : d.lhsContracting = [1]) (hrc : d.rhsContracting = [1]) (hln : d.lhsNonContracting = [2])
    (hrn : d.rhsNonContracting = [2]) (hlb : d.lhsBatch = [0]) (hrb : d.rhsBatch = [0])
    (b : Fin B) (k : Fin K) (j : Fin D) (n : Fin N) :
    d.rhsIdx (ix3 b k j) ((contrEquiv1 d N (mid_contr_rank d hlc) (mid_contr_size d hlc)).symm n) = ix3 b n j := by
  funext ax
  apply Fin.ext
  match ax with
  | ⟨0, _⟩ =>
    show (d.rhsIdx (ix3 b k j) _ (0 : Fin 3)).val = b.val
    have hb : (0 : Fin 3) ∈ d.rhsBatch := by rw [hrb]; exact List.mem_singleton.mpr rfl
    unfold DotDims.rhsIdx
    rw [dif_pos hb]
    simp only [Fin.val_cast]
    exact ix3_val_zero b k j _ _ (by rw [hrb]; rfl)
  | ⟨1, _⟩ =>
    show (d.rhsIdx (ix3 b k j) _ (1 : Fin 3)).val = n.val
    rw [DotDims.rhsIdx_val_of_single d hrc]
    exact contrEquiv1_symm_val d N (mid_contr_rank d hlc) (mid_contr_size d hlc) n
  | ⟨2, _⟩ =>
    show (d.rhsIdx (ix3 b k j) _ (2 : Fin 3)).val = j.val
    have hnb : (2 : Fin 3) ∉ d.rhsBatch := by rw [hrb]; exact two_not_mem_zero
    have hn : (2 : Fin 3) ∈ d.rhsNonContracting := by rw [hrn]; exact List.mem_singleton.mpr rfl
    unfold DotDims.rhsIdx
    rw [dif_neg hnb, dif_pos hn]
    simp only [Fin.val_cast]
    exact ix3_val_two b k j _ _ (by rw [hlb, hln, hrn]; rfl)

/-- THE BATCHED PRODUCT OVER THE MIDDLE AXIS read at (b, k, j). -/
theorem mid_apply (d : DotDims ⟨3, ![B, N, K]⟩ ⟨3, ![B, N, D]⟩ ⟨3, ![B, K, D]⟩)
    (hlc : d.lhsContracting = [1]) (hrc : d.rhsContracting = [1]) (hln : d.lhsNonContracting = [2])
    (hrn : d.rhsNonContracting = [2]) (hlb : d.lhsBatch = [0]) (hrb : d.rhsBatch = [0])
    (prec : Option ContractPrecision) (sched : HostSchedule)
    (lhs : FVec Ideal ⟨3, ![B, N, K]⟩ φ₁) (rhs : FVec Ideal ⟨3, ![B, N, D]⟩ φ₂) (b : Fin B) (k : Fin K) (j : Fin D) :
    FloatOps.dotGeneral d prec sched lhs rhs (ix3 b k j) = ∑ n : Fin N, lhs (ix3 b n k) * rhs (ix3 b n j) := by
  rw [Ideal.dotGeneral_apply]
  rw [← Equiv.sum_comp (contrEquiv1 d N (mid_contr_rank d hlc) (mid_contr_size d hlc)).symm]
  refine Finset.sum_congr rfl fun n _ => ?_
  rw [mid_lhsIdx d hlc hln hlb b k j n, mid_rhsIdx d hlc hrc hln hrn hlb hrb b k j n]

end Mid

end Cert.Lib.HostDots

end
-- ==== Proof.LibHostForms.lean ====
/-
  Host layout operations and reductions read at an entry, for any extents.

  * broadcast_in_dim: a scalar over any shape; a vector [D] to [1, 1, D] and [1, 1, D] over [B, N, D]; an array
    [B, N] to a column stack [B, N, 1] and that over [B, N, D]; a matrix [K, D] to [1, K, D] and that over
    [B, K, D]; a vector [B] to a column [B, 1] and that over [B, M].
  * On the extended reals, a host sum over the last axis or over the middle axis of a rank-3 array, and over the
    last axis of a matrix: the initial value plus the sum over that axis.  A host reduction with a commutative and
    associative body over the last axis of a rank-3 array: the fold of the body from the initial value.
  * An [a, b, c] array reshaped to [a, b·c] read at (r, i·c + d) is the operand at (r, i, d).
-/
import Idealize.ShloMosaic.Lib.ValueIdx
import Idealize.ShloMosaic.Lib.Pipeline.Value
import Idealize.ShloMosaic.PureOps.Ideal.Laws

noncomputable section

open scoped BigOperators

namespace Cert.Lib.HostForms

open Idealize.ShloMosaic Idealize.ShloMosaic.ValueIdx

variable {α : Type}

/-! ## broadcast_in_dim -/

/-- A rank-0 array broadcast over any shape reads its one entry everywhere. -/
theorem bcast_scalar {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- [D] to [1, 1, D] along the last axis. -/
theorem bcast_d_11d {D : Nat} (dims : Fin 1 → Fin 3) (hd : dims 0 = 2)
    (h : (⟨1, ![D]⟩ : Shape).BroadcastsInDim ⟨3, ![1, 1, D]⟩ dims) (v : (⟨1, ![D]⟩ : Shape).Idx → α)
    (u1 u2 : Fin 1) (j : Fin D) : broadcastInDim ⟨3, ![1, 1, D]⟩ dims h v (ix3 u1 u2 j) = v (ix1 j) := by
  refine broadcastInDim_apply dims h v (ix3 u1 u2 j) (ix1 j) fun a => ?_
  match a with
  | ⟨0, _⟩ =>
    show j.val = if D = 1 then 0 else (ix3 u1 u2 j (dims 0)).val
    rw [hd]
    split
    · have := j.isLt; omega
    · rfl

/-- [1, 1, D] over [B, N, D]. -/
theorem bcast_11d_bnd {B N D : Nat} (dims : Fin 3 → Fin 3) (h0 : dims 0 = 0) (h1 : dims 1 = 1) (h2 : dims 2 = 2)
    (h : (⟨3, ![1, 1, D]⟩ : Shape).BroadcastsInDim ⟨3, ![B, N, D]⟩ dims) (v : (⟨3, ![1, 1, D]⟩ : Shape).Idx → α)
    (b : Fin B) (n : Fin N) (j : Fin D) :
    broadcastInDim ⟨3, ![B, N, D]⟩ dims h v (ix3 b n j) = v (ix3 (0 : Fin 1) (0 : Fin 1) j) := by
  refine broadcastInDim_apply dims h v (ix3 b n j) (ix3 (0 : Fin 1) (0 : Fin 1) j) fun a => ?_
  match a with
  | ⟨0, _⟩ => rfl
  | ⟨1, _⟩ => rfl
  | ⟨2, _⟩ =>
    show j.val = if D = 1 then 0 else (ix3 b n j (dims 2)).val
    rw [h2]
    split
    · have := j.isLt; omega
    · rfl

/-- [B, N] to the column stack [B, N, 1]. -/
theorem bcast_bn_bn1 {B N : Nat} (dims : Fin 2 → Fin 3) (h0 : dims 0 = 0) (h1 : dims 1 = 1)
    (h : (⟨2, ![B, N]⟩ : Shape).BroadcastsInDim ⟨3, ![B, N, 1]⟩ dims) (v : (⟨2, ![B, N]⟩ : Shape).Idx → α)
    (b : Fin B) (n : Fin N) (z : Fin 1) : broadcastInDim ⟨3, ![B, N, 1]⟩ dims h v (ix3 b n z) = v (ix2 b n) := by
  refine broadcastInDim_apply dims h v (ix3 b n z) (ix2 b n) fun a => ?_
  match a with
  | ⟨0, _⟩ =>
    show b.val = if B = 1 then 0 else (ix3 b n z (dims 0)).val
    rw [h0]
    split
    · have := b.isLt; omega
    · rfl
  | ⟨1, _⟩ =>
    show n.val = if N = 1 then 0 else (ix3 b n z (dims 1)).val
    rw [h1]
    split
    · have := n.isLt; omega
    · rfl

/-- The column stack [B, N, 1] over [B, N, D]. -/
theorem bcast_bn1_bnd {B N D : Nat} (dims : Fin 3 → Fin 3) (h0 : dims 0 = 0) (h1 : dims 1 = 1) (h2 : dims 2 = 2)
    (h : (⟨3, ![B, N, 1]⟩ : Shape).BroadcastsInDim ⟨3, ![B, N, D]⟩ dims) (v : (⟨3, ![B, N, 1]⟩ : Shape).Idx → α)
    (b : Fin B) (n : Fin N) (j : Fin D) :
    broadcastInDim ⟨3, ![B, N, D]⟩ dims h v (ix3 b n j) = v (ix3 b n (0 : Fin 1)) := by
  refine broadcastInDim_apply dims h v (ix3 b n j) (ix3 b n (0 : Fin 1)) fun a => ?_
  match a with
  | ⟨0, _⟩ =>
    show b.val = if B = 1 then 0 else (ix3 b n j (dims 0)).val
    rw [h0]
    split
    · have := b.isLt; omega
    · rfl
  | ⟨1, _⟩ =>
    show n.val = if N = 1 then 0 else (ix3 b n j (dims 1)).val
    rw [h1]
    split
    · have := n.isLt; omega
    · rfl
  | ⟨2, _⟩ => rfl

/-- [K, D] to [1, K, D]. -/
theorem bcast_kd_1kd {K D : Nat} (dims : Fin 2 → Fin 3) (h0 : dims 0 = 1) (h1 : dims 1 = 2)
    (h : (⟨2, ![K, D]⟩ : Shape).BroadcastsInDim ⟨3, ![1, K, D]⟩ dims) (v : (⟨2, ![K, D]⟩ : Shape).Idx → α)
    (u : Fin 1) (k : Fin K) (j : Fin D) : broadcastInDim ⟨3, ![1, K, D]⟩ dims h v (ix3 u k j) = v (ix2 k j) := by
  refine broadcastInDim_apply dims h v (ix3 u k j) (ix2 k j) fun a => ?_
  match a with
  | ⟨0, _⟩ =>
    show k.val = if K = 1 then 0 else (ix3 u k j (dims 0)).val
    rw [h0]
    split
    · have := k.isLt; omega
    · rfl
  | ⟨1, _⟩ =>
    show j.val = if D = 1 then 0 else (ix3 u k j (dims 1)).val
    rw [h1]
    split
    · have := j.isLt; omega
    · rfl

/-- [1, K, D] over [B, K, D]. -/
theorem bcast_1kd_bkd {B K D : Nat} (dims : Fin 3 → Fin 3) (h0 : dims 0 = 0) (h1 : dims 1 = 1) (h2 : dims 2 = 2)
    (h : (⟨3, ![1, K, D]⟩ : Shape).BroadcastsInDim ⟨3, ![B, K, D]⟩ dims) (v : (⟨3, ![1, K, D]⟩ : Shape).Idx → α)
    (b : Fin B) (k : Fin K) (j : Fin D) :
    broadcastInDim ⟨3, ![B, K, D]⟩ dims h v (ix3 b k j) = v (ix3 (0 : Fin 1) k j) := by
  refine broadcastInDim_apply dims h v (ix3 b k j) (ix3 (0 : Fin 1) k j) fun a => ?_
  match a with
  | ⟨0, _⟩ => rfl
  | ⟨1, _⟩ =>
    show k.val = if K = 1 then 0 else (ix3 b k j (dims 1)).val
    rw [h1]
    split
    · have := k.isLt; omega
    · rfl
  | ⟨2, _⟩ =>
    show j.val = if D = 1 then 0 else (ix3 b k j (dims 2)).val
    rw [h2]
    split
    · have := j.isLt; omega
    · rfl

/-- [B] to the column [B, 1]. -/
theorem bcast_b_b1 {B : Nat} (dims : Fin 1 → Fin 2) (h0 : dims 0 = 0)
    (h : (⟨1, ![B]⟩ : Shape).BroadcastsInDim ⟨2, ![B, 1]⟩ dims) (v : (⟨1, ![B]⟩ : Shape).Idx → α)
    (b : Fin B) (z : Fin 1) : broadcastInDim ⟨2, ![B, 1]⟩ dims h v (ix2 b z) = v (ix1 b) := by
  refine broadcastInDim_apply dims h v (ix2 b z) (ix1 b) fun a => ?_
  match a with
  | ⟨0, _⟩ =>
    show b.val = if B = 1 then 0 else (ix2 b z (dims 0)).val
    rw [h0]
    split
    · have := b.isLt; omega
    · rfl

/-- The column [B, 1] over [B, M]. -/
theorem bcast_b1_bm {B M : Nat} (dims : Fin 2 → Fin 2) (h0 : dims 0 = 0) (h1 : dims 1 = 1)
    (h : (⟨2, ![B, 1]⟩ : Shape).BroadcastsInDim ⟨2, ![B, M]⟩ dims) (v : (⟨2, ![B, 1]⟩ : Shape).Idx → α)
    (b : Fin B) (n : Fin M) : broadcastInDim ⟨2, ![B, M]⟩ dims h v (ix2 b n) = v (ix2 b (0 : Fin 1)) := by
  refine broadcastInDim_apply dims h v (ix2 b n) (ix2 b (0 : Fin 1)) fun a => ?_
  match a with
  | ⟨0, _⟩ =>
    show b.val = if B = 1 then 0 else (ix2 b n (dims 0)).val
    rw [h0]
    split
    · have := b.isLt; omega
    · rfl
  | ⟨1, _⟩ => rfl

/-! ## Host reductions on the extended reals -/

/-- A host sum over the last axis of a rank-3 array, at (b, n). -/
theorem hostSum_last3 {B N D : Nat} (x : FVec Ideal ⟨3, ![B, N, D]⟩ .f32) (init : (⟨0, ![]⟩ : Shape).Idx → Ideal .f32)
    (h' : (⟨3, ![B, N, D]⟩ : Shape).ReducesTo [2] ⟨2, ![B, N]⟩) (h : (⟨3, ![B, N, D]⟩ : Shape).Reduces [2] ⟨2, ![B, N]⟩)
    (hu : 0 < (⟨0, ![]⟩ : Shape).numel) (b : Fin B) (n : Fin N) :
    Host.reduceAdd x init h' hu (ix2 b n) = init (Shape.Idx.first hu) + ∑ j : Fin D, x (ix3 b n j) := by
  show Ideal.hostReduceAdd h' x (init (Shape.Idx.first hu)) (ix2 b n) = _
  rw [Ideal.hostReduceAdd_single h' h]
  refine congrArg _ (Finset.sum_congr rfl fun j _ => congrArg x (funext fun c => Fin.ext ?_))
  match c with
  | ⟨0, _⟩ => rfl
  | ⟨1, _⟩ => rfl
  | ⟨2, _⟩ => rfl

/-- A host sum over the middle axis of a rank-3 array, at (b, k). -/
theorem hostSum_mid3 {B N K : Nat} (x : FVec Ideal ⟨3, ![B, N, K]⟩ .f32) (init : (⟨0, ![]⟩ : Shape).Idx → Ideal .f32)
    (h' : (⟨3, ![B, N, K]⟩ : Shape).ReducesTo [1] ⟨2, ![B, K]⟩) (h : (⟨3, ![B, N, K]⟩ : Shape).Reduces [1] ⟨2, ![B, K]⟩)
    (hu : 0 < (⟨0, ![]⟩ : Shape).numel) (b : Fin B) (k : Fin K) :
    Host.reduceAdd x init h' hu (ix2 b k) = init (Shape.Idx.first hu) + ∑ n : Fin N, x (ix3 b n k) := by
  show Ideal.hostReduceAdd h' x (init (Shape.Idx.first hu)) (ix2 b k) = _
  rw [Ideal.hostReduceAdd_single h' h]
  refine congrArg _ (Finset.sum_congr rfl fun n _ => congrArg x (funext fun c => Fin.ext ?_))
  match c with
  | ⟨0, _⟩ => rfl
  | ⟨1, _⟩ => rfl
  | ⟨2, _⟩ => rfl

/-- A host sum over the last axis of a matrix, at b. -/
theorem hostSum_last2 {B M : Nat} (x : FVec Ideal ⟨2, ![B, M]⟩ .f32) (init : (⟨0, ![]⟩ : Shape).Idx → Ideal .f32)
    (h' : (⟨2, ![B, M]⟩ : Shape).ReducesTo [1] ⟨1, ![B]⟩) (h : (⟨2, ![B, M]⟩ : Shape).Reduces [1] ⟨1, ![B]⟩)
    (hu : 0 < (⟨0, ![]⟩ : Shape).numel) (b : Fin B) :
    Host.reduceAdd x init h' hu (ix1 b) = init (Shape.Idx.first hu) + ∑ n : Fin M, x (ix2 b n) := by
  show Ideal.hostReduceAdd h' x (init (Shape.Idx.first hu)) (ix1 b) = _
  rw [Ideal.hostReduceAdd_single h' h]
  refine congrArg _ (Finset.sum_congr rfl fun n _ => congrArg x (funext fun c => Fin.ext ?_))
  match c with
  | ⟨0, _⟩ => rfl
  | ⟨1, _⟩ => rfl

/-- A host reduction with a commutative and associative body over the last axis of a rank-3 array, at (b, n): the
    fold of the body over the entries (b, n, d), from the initial value. -/
theorem hostFold_last3 {B N D : Nat} (f : α → α → α) [Std.Commutative f] [Std.Associative f]
    (x : (⟨3, ![B, N, D]⟩ : Shape).Idx → α) (init : (⟨0, ![]⟩ : Shape).Idx → α)
    (h' : (⟨3, ![B, N, D]⟩ : Shape).ReducesTo [2] ⟨2, ![B, N]⟩) (h : (⟨3, ![B, N, D]⟩ : Shape).Reduces [2] ⟨2, ![B, N]⟩)
    (hu : 0 < (⟨0, ![]⟩ : Shape).numel) (b : Fin B) (n : Fin N) :
    Host.reduce f x init h' hu (ix2 b n)
      = (Finset.univ : Finset (Fin D)).fold f (init (Shape.Idx.first hu)) (fun d => x (ix3 b n d)) := by
  rw [Host.reduce_eq_fold_single f x init h' h hu (ix2 b n)]
  refine Finset.fold_congr fun d _ => ?_
  show x (h.lift (ix2 b n) d) = x (ix3 b n d)
  refine congrArg x (funext fun c => Fin.ext ?_)
  match c with
  | ⟨0, _⟩ => rfl
  | ⟨1, _⟩ => rfl
  | ⟨2, _⟩ => rfl

/-! ## The two trailing axes flattened -/

/-- An [a, b, c] array reshaped to [a, n], n = b·c, at (r, i·c + d) is the operand at (r, i, d). -/
theorem flatten_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

end Cert.Lib.HostForms

end
-- ==== Proof.RefStages.lean ====
/-
  The reference's stages read at an entry, on the extended reals.

  Stage by stage the reference computes, for batch element b and token n: the affine image of the token row, its
  descriptor, the logits, the shifted exponentials, the assignment; then per batch element the products summed over
  all tokens, the residual against the centroids, each cluster row unitized — and that block, flattened, unitized as
  a whole.  Each stage below is read at one entry in terms of the stage before, ending at the pooled block.
-/
import proofs.«126445_j20444044329188_2_alg».proof.Proof.Gen.ReferenceIdeal.Run
import proofs.«126445_j20444044329188_2_alg».proof.Proof.LibHostDots
import proofs.«126445_j20444044329188_2_alg».proof.Proof.LibHostForms
import proofs.«126445_j20444044329188_2_alg».proof.Proof.LibScaledTiles
import proofs.«126445_j20444044329188_2_alg».proof.Proof.Pooling
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.Pooling Cert.Lib.HostDots Cert.Lib.HostForms

variable (V0 : Valuation τ sig (Elt Ideal))

/-- The argument arrays by their entries. -/
def xrow (b : Fin 32) (n : Fin 8192) (c : Fin 512) : EReal := V0 (Proc.devRef .tc main_arg0) (ix3 b n c)
def W1 (j : Fin 64) (c : Fin 512) : EReal := V0 (Proc.devRef .tc main_arg2) (ix2 j c)
def B1 (j : Fin 64) : EReal := V0 (Proc.devRef .tc main_arg3) (ix1 j)
def W2 (k : Fin 8) (j : Fin 64) : EReal := V0 (Proc.devRef .tc main_arg4) (ix2 k j)
def B2 (k : Fin 8) : EReal := V0 (Proc.devRef .tc main_arg5) (ix1 k)
def CE (k : Fin 8) (j : Fin 64) : EReal := V0 (Proc.devRef .tc main_arg6) (ix2 k j)

theorem hdivf_apply {s : Shape} {φ : FTy} (a b : FVec Ideal s φ) (i : s.Idx) : Host.divf a b i = Ideal.div (a i) (b i) := rfl
theorem hsqrt_apply {s : Shape} {φ : FTy} (a : FVec Ideal s φ) (i : s.Idx) : Host.sqrt a i = Ideal.sqrt (a i) := rfl
theorem hexp_apply {s : Shape} {φ : FTy} (a : FVec Ideal s φ) (i : s.Idx) : Host.exp a i = Ideal.exp (a i) := rfl

/-- The affine image of token row (b, n). -/
theorem v3_apply (b : Fin 32) (n : Fin 8192) (j : Fin 64) :
    res_main_v3 V0 (ix3 b n j) = lin (W1 V0) (B1 V0) (xrow V0 b n) j := by
  unfold res_main_v3
  exact congrArg₂ (· + ·) (rows_apply _ rfl rfl rfl rfl rfl rfl _ _ _ _ b n j)
    ((bcast_11d_bnd ![0, 1, 2] rfl rfl rfl _ _ b n j).trans (bcast_d_11d ![2] rfl _ _ 0 0 j))

/-- Its descriptor. -/
theorem v11_apply (b : Fin 32) (n : Fin 8192) (j : Fin 64) :
    res_main_v11 V0 (ix3 b n j) = desc (W1 V0) (B1 V0) (xrow V0 b n) j := by
  unfold res_main_v11
  simp only [hdivf_apply, maximumf_apply, hsqrt_apply, mulf_apply, constant_apply,
    bcast_bn1_bnd ![0, 1, 2] rfl rfl rfl, bcast_bn_bn1 ![0, 1] rfl rfl, bcast_scalar,
    hostSum_last3 _ _ _ (by decide : S32x8192x64.Reduces [2] S32x8192), v3_apply,
    Ideal.ofBits_zero_f32, zero_add]
  rfl

/-- The logits. -/
theorem v15_apply (b : Fin 32) (n : Fin 8192) (k : Fin 8) :
    res_main_v15 V0 (ix3 b n k) = lin (W2 V0) (B2 V0) (desc (W1 V0) (B1 V0) (xrow V0 b n)) k := by
  unfold res_main_v15
  refine (congrArg₂ (· + ·) (rows_apply _ rfl rfl rfl rfl rfl rfl _ _ _ _ b n k)
    ((bcast_11d_bnd ![0, 1, 2] rfl rfl rfl _ _ b n k).trans (bcast_d_11d ![2] rfl _ _ 0 0 k))).trans ?_
  simp only [v11_apply]
  rfl

/-- The reduction witness of the logits' row maximum. -/
theorem red_max : S32x8192x8.Reduces [2] S32x8192 := by decide

/-- The row maximum of any [32, 8192, 8] array, taken from the word of −∞ (as a host maximum-reduce over the last axis
    followed by a maximum with the splat of that word). -/
theorem rowmax_of (x : FVec Ideal S32x8192x8 .f32) (b : Fin 32) (n : Fin 8192) :
    (maximumf (broadcastInDim S32x8192 ![] bcast_S_S32x8192 (constant S_ .f32 0xFF800000#32))
        (Host.reduce FloatOps.maximumf x (constant S_ .f32 0xFF800000#32) reducesTo_S32x8192x8_S32x8192_d2 h_S_)) (ix2 b n)
      = max lo ((Finset.univ : Finset (Fin 8)).fold max lo (fun d => x (ix3 b n d))) :=
  (maximumf_apply _ _ _).trans (congrArg₂ max (bcast_scalar _ _ _ _)
    (hostFold_last3 (FloatOps.maximumf (F := Ideal) (φ := .f32)) x _ reducesTo_S32x8192x8_S32x8192_d2 red_max h_S_ b n))

/-- The row maximum of the logits. -/
theorem rowmax_apply (b : Fin 32) (n : Fin 8192) :
    (maximumf (broadcastInDim S32x8192 ![] bcast_S_S32x8192 (constant S_ .f32 0xFF800000#32))
        (Host.reduce FloatOps.maximumf (res_main_v15 V0) (constant S_ .f32 0xFF800000#32) reducesTo_S32x8192x8_S32x8192_d2 h_S_)) (ix2 b n)
      = max lo ((Finset.univ : Finset (Fin 8)).fold max lo (lin (W2 V0) (B2 V0) (desc (W1 V0) (B1 V0) (xrow V0 b n)))) :=
  (rowmax_of (res_main_v15 V0) b n).trans
    (congrArg (max lo) (Finset.fold_congr fun d _ => v15_apply V0 b n d))

/-- The exponentials of the logits shifted by their maximum. -/
theorem v22_apply (b : Fin 32) (n : Fin 8192) (k : Fin 8) :
    res_main_v22 V0 (ix3 b n k)
      = Ideal.exp (lin (W2 V0) (B2 V0) (desc (W1 V0) (B1 V0) (xrow V0 b n)) k
          - max lo ((Finset.univ : Finset (Fin 8)).fold max lo (lin (W2 V0) (B2 V0) (desc (W1 V0) (B1 V0) (xrow V0 b n))))) := by
  unfold res_main_v22
  refine (hexp_apply _ _).trans (congrArg Ideal.exp ((subf_apply _ _ _).trans (congrArg₂ (· - ·) (v15_apply V0 b n k) ?_)))
  exact (bcast_bn1_bnd ![0, 1, 2] rfl rfl rfl _ _ b n k).trans
    ((bcast_bn_bn1 ![0, 1] rfl rfl _ _ b n 0).trans (rowmax_apply V0 b n))

/-- The assignment. -/
theorem v26_apply (b : Fin 32) (n : Fin 8192) (k : Fin 8) :
    res_main_v26 V0 (ix3 b n k) = (asg (W1 V0) (B1 V0) (W2 V0) (B2 V0) (xrow V0 b n)) k := by
  unfold res_main_v26
  simp only [hdivf_apply, constant_apply, bcast_bn1_bnd ![0, 1, 2] rfl rfl rfl, bcast_bn_bn1 ![0, 1] rfl rfl,
    hostSum_last3 _ _ _ (by decide : S32x8192x8.Reduces [2] S32x8192), v22_apply, Ideal.ofBits_zero_f32, zero_add]
  rfl

/-- The residual block of batch element b. -/
theorem v34_apply (b : Fin 32) (k : Fin 8) (j : Fin 64) :
    res_main_v34 V0 (ix3 b k j)
      = (∑ n : Fin 8192, (asg (W1 V0) (B1 V0) (W2 V0) (B2 V0) (xrow V0 b n)) k * (desc (W1 V0) (B1 V0) (xrow V0 b n)) j) - CE V0 k j * ∑ n : Fin 8192, (asg (W1 V0) (B1 V0) (W2 V0) (B2 V0) (xrow V0 b n)) k := by
  unfold res_main_v34
  refine (congrArg₂ (· - ·) (mid_apply _ rfl rfl rfl rfl rfl rfl _ _ _ _ b k j) rfl).trans ?_
  simp only [mulf_apply, constant_apply, bcast_1kd_bkd ![0, 1, 2] rfl rfl rfl, bcast_kd_1kd ![1, 2] rfl rfl,
    bcast_bn1_bnd ![0, 1, 2] rfl rfl rfl, bcast_bn_bn1 ![0, 1] rfl rfl,
    hostSum_mid3 _ _ _ (by decide : S32x8192x8.Reduces [1] S32x8), Ideal.ofBits_zero_f32, zero_add, v26_apply, v11_apply]
  rfl

/-- Each cluster row of the residual block unitized: the stage before the flattening. -/
def v42 : FVec Ideal S32x8x64 .f32 :=
  Host.divf (res_main_v34 V0) (broadcastInDim S32x8x64 ![0, 1, 2] bcast_S32x8x1_S32x8x64_0_1_2 (maximumf (Host.sqrt (broadcastInDim S32x8x1 ![0, 1] bcast_S32x8_S32x8x1_0_1 (Host.reduceAdd (mulf (res_main_v34 V0) (res_main_v34 V0)) (constant S_ .f32 0x00000000#32) reducesTo_S32x8x64_S32x8_d2 h_S_))) (broadcastInDim S32x8x1 ![] bcast_S_S32x8x1 (constant S_ .f32 0x2B8CBCCC#32))))

theorem v43_eq : res_main_v43 V0 = shapeCast S32x512 (v42 V0) shapeCasts_S32x8x64_S32x512 := rfl

theorem v42_apply (b : Fin 32) (k : Fin 8) (j : Fin 64) :
    v42 V0 (ix3 b k j) = unitize eps (fun j => res_main_v34 V0 (ix3 b k j)) j := by
  unfold v42
  simp only [hdivf_apply, maximumf_apply, hsqrt_apply, mulf_apply, constant_apply,
    bcast_bn1_bnd ![0, 1, 2] rfl rfl rfl, bcast_bn_bn1 ![0, 1] rfl rfl, bcast_scalar,
    hostSum_last3 _ _ _ (by decide : S32x8x64.Reduces [2] S32x8), Ideal.ofBits_zero_f32, zero_add]
  rfl

/-- The reference's result: the flattened block divided by the larger of its norm and ε. -/
def result : FVec Ideal S32x512 .f32 :=
  Host.divf (res_main_v43 V0) (broadcastInDim S32x512 ![0, 1] bcast_S32x1_S32x512_0_1 (maximumf (Host.sqrt (broadcastInDim S32x1 ![0] bcast_S32_S32x1_0 (Host.reduceAdd (mulf (res_main_v43 V0) (res_main_v43 V0)) (constant S_ .f32 0x00000000#32) reducesTo_S32x512_S32_d1 h_S_))) (broadcastInDim S32x1 ![] bcast_S_S32x1 (constant S_ .f32 0x2B8CBCCC#32))))

open Cert.Lib.ScaledTiles in
/-- At flat position 64·k + j of batch element b the result is the pooled block's entry (k, j). -/
theorem result_apply (b : Fin 32) (k : Fin 8) (j : Fin 64) :
    result V0 (ix2 b (tilePos (n := 8) (K := 64) k j))
      = pooledOf (W1 V0) (B1 V0) (W2 V0) (B2 V0) (CE V0) (xrow V0 b) k j := by
  have hflat : ∀ (k' : Fin 8) (j' : Fin 64), res_main_v43 V0 (ix2 b (tilePos (n := 8) (K := 64) k' j'))
      = unitize eps (fun j => res_main_v34 V0 (ix3 b k' j)) j' := fun k' j' => by
    rw [v43_eq]
    exact (flatten_apply _ _ rfl b _ k' j' (by rw [tilePos_val]; omega)).trans (v42_apply V0 b k' j')
  have hs : ∀ {β : Type} [AddCommMonoid β] (f : Fin 512 → β),
      ∑ n : Fin 512, f n = ∑ s : Fin 8, ∑ q : Fin 64, f (tilePos (n := 8) (K := 64) s q) :=
    fun f => sum_tiles (n := 8) (K := 64) f
  unfold result
  simp only [hdivf_apply, maximumf_apply, hsqrt_apply, mulf_apply, constant_apply, bcast_b1_bm ![0, 1] rfl rfl,
    bcast_b_b1 ![0] rfl, bcast_scalar, hostSum_last2 _ _ _ (by decide : S32x512.Reduces [1] S32),
    Ideal.ofBits_zero_f32, zero_add]
  rw [hs]
  simp only [hflat, v34_apply]
  rfl

open Cert.Lib.ScaledTiles in
/-- The reference's result as the flattening of the 32 pooled blocks. -/
theorem result_eq (h : (⟨3, ![32, 8, 64]⟩ : Shape).ShapeCasts ⟨2, ![32, 512]⟩) :
    result V0 = shapeCast ⟨2, ![32, 512]⟩ (fun i : (⟨3, ![32, 8, 64]⟩ : Shape).Idx =>
      pooledOf (W1 V0) (B1 V0) (W2 V0) (B2 V0) (CE V0) (xrow V0 (i 0)) (i 1) (i 2)) h := by
  funext i
  obtain ⟨b, nn, rfl⟩ : ∃ (b : Fin 32) (nn : Fin 512), i = ix2 b nn := ⟨i 0, i 1, eq_ix2 i⟩
  have hk : nn.val / 64 < 8 := by have := nn.isLt; omega
  have hj : nn.val % 64 < 64 := Nat.mod_lt _ (by decide)
  have e : nn = tilePos (n := 8) (K := 64) ⟨nn.val / 64, hk⟩ ⟨nn.val % 64, hj⟩ :=
    Fin.ext (by rw [tilePos_val]; show nn.val = 64 * (nn.val / 64) + nn.val % 64; omega)
  rw [e, result_apply]
  exact (flatten_apply (fun i : (⟨3, ![32, 8, 64]⟩ : Shape).Idx =>
      pooledOf (W1 V0) (B1 V0) (W2 V0) (B2 V0) (CE V0) (xrow V0 (i 0)) (i 1) (i 2)) h rfl b
      (tilePos (n := 8) (K := 64) ⟨nn.val / 64, hk⟩ ⟨nn.val % 64, hj⟩) ⟨nn.val / 64, hk⟩ ⟨nn.val % 64, hj⟩
    (by rw [tilePos_val]; show 64 * (nn.val / 64) + nn.val % 64 = nn.val / 64 * 64 + nn.val % 64; omega)).symm

end Cert.ReferenceIdeal.RefValue

end
-- ==== Proof.lean ====
/-
  NetVLAD pooling: the kernel against its reference, on the extended reals.

  Both programs compute, for each of the 32 batch elements, the pooled block of its 8192 token rows — per token a
  descriptor (an affine image divided by the larger of its norm and ε) and a softmax assignment over 8 clusters; per
  cluster the sum over the tokens of assignment · descriptor minus the centroid times the sum of the assignments; each
  cluster row, then the whole block, divided by the larger of its norm and ε — flattened to 512 numbers.  The reference
  takes the sums over all tokens at once; the kernel walks them in two grid points of four chunks of 1024 rows,
  adding into two running buffers it clears at the even point and finalizes at the odd one.  Addition on the extended
  reals commutes and associates, so the two orders give the same sums and the results are equal entry by entry; no
  finiteness of the inputs is used.  The one change the idealized kernel makes to the kernel — a narrowing to bf16
  followed by the widening back, replaced by the identity — is the identity on the extended reals.
-/
import proofs.«126445_j20444044329188_2_alg».proof.Defs
import proofs.«126445_j20444044329188_2_alg».proof.Proof.Gen.Kernel
import proofs.«126445_j20444044329188_2_alg».proof.Proof.Gen.Kernel.Skeleton
import proofs.«126445_j20444044329188_2_alg».proof.Proof.Gen.Kernel.Loops
import proofs.«126445_j20444044329188_2_alg».proof.Proof.Gen.Kernel.Launch
import proofs.«126445_j20444044329188_2_alg».proof.Proof.Gen.Kernel.Points
import proofs.«126445_j20444044329188_2_alg».proof.Proof.Gen.Kernel.Frame
import proofs.«126445_j20444044329188_2_alg».proof.Proof.Gen.KernelIdeal
import proofs.«126445_j20444044329188_2_alg».proof.Proof.Gen.KernelIdeal.Skeleton
import proofs.«126445_j20444044329188_2_alg».proof.Proof.Gen.KernelIdeal.Loops
import proofs.«126445_j20444044329188_2_alg».proof.Proof.Gen.KernelIdeal.Launch
import proofs.«126445_j20444044329188_2_alg».proof.Proof.Gen.KernelIdeal.Points
import proofs.«126445_j20444044329188_2_alg».proof.Proof.Gen.KernelIdeal.Frame
import proofs.«126445_j20444044329188_2_alg».proof.Proof.Gen.ReferenceIdeal
import proofs.«126445_j20444044329188_2_alg».proof.Proof.Gen.ReferenceIdeal.Run
import proofs.«126445_j20444044329188_2_alg».proof.Proof.Gen.Pre_finite_inputs
import proofs.«126445_j20444044329188_2_alg».proof.Proof.KernelValue
import proofs.«126445_j20444044329188_2_alg».proof.Proof.RefStages
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Pooling

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on the extended reals. -/
theorem preserves : Cert.preserves_Kernel_KernelIdeal := IdealRules.truncf_extf.statement _ .f32 .bf16

/-- The reference's result, from a memory agreeing with the kernel's on the arguments, is the flattening of the
    pooled blocks the kernel leaves. -/
theorem result_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RefValue.result (StableHlo.launchContents m' c)
      = shapeCast Cert.KernelIdeal.S32x512 (Cert.KernelIdeal.KernelValue.G3 m c) Cert.KernelIdeal.Gen.shapeCasts_S32x8x64_S32x512 := by
  rw [Cert.ReferenceIdeal.RefValue.result_eq (StableHlo.launchContents m' c) Cert.KernelIdeal.Gen.shapeCasts_S32x8x64_S32x512]
  refine congrArg (fun g => shapeCast Cert.KernelIdeal.S32x512 g Cert.KernelIdeal.Gen.shapeCasts_S32x8x64_S32x512) (funext fun i => ?_)
  unfold Cert.KernelIdeal.KernelValue.G3 Cert.KernelIdeal.KernelValue.pooledArr
  have e1 : Cert.ReferenceIdeal.RefValue.W1 (StableHlo.launchContents m' c) = Cert.KernelIdeal.Payloads.mat (m ((c.tc : Thread Cert.KernelIdeal.nD Cert.KernelIdeal.τ).loc Cert.KernelIdeal.main_arg2)) :=
    funext fun j => funext fun k => congrFun h2 (ix2 j k)
  have e2 : Cert.ReferenceIdeal.RefValue.B1 (StableHlo.launchContents m' c) = fun j => m ((c.tc : Thread Cert.KernelIdeal.nD Cert.KernelIdeal.τ).loc Cert.KernelIdeal.main_arg3) (ix1 j) :=
    funext fun j => congrFun h3 (ix1 j)
  have e3 : Cert.ReferenceIdeal.RefValue.W2 (StableHlo.launchContents m' c) = Cert.KernelIdeal.Payloads.mat (m ((c.tc : Thread Cert.KernelIdeal.nD Cert.KernelIdeal.τ).loc Cert.KernelIdeal.main_arg4)) :=
    funext fun j => funext fun k => congrFun h4 (ix2 j k)
  have e4 : Cert.ReferenceIdeal.RefValue.B2 (StableHlo.launchContents m' c) = fun k => m ((c.tc : Thread Cert.KernelIdeal.nD Cert.KernelIdeal.τ).loc Cert.KernelIdeal.main_arg5) (ix1 k) :=
    funext fun k => congrFun h5 (ix1 k)
  have e5 : Cert.ReferenceIdeal.RefValue.CE (StableHlo.launchContents m' c) = Cert.KernelIdeal.Payloads.mat (m ((c.tc : Thread Cert.KernelIdeal.nD Cert.KernelIdeal.τ).loc Cert.KernelIdeal.main_arg6)) :=
    funext fun j => funext fun k => congrFun h6 (ix2 j k)
  have e6 : Cert.ReferenceIdeal.RefValue.xrow (StableHlo.launchContents m' c) (i 0) = Cert.KernelIdeal.KernelValue.rowsOf m c (i 0) :=
    funext fun n => funext fun k => congrFun h0 (ix3 (i 0) n k)
  rw [e1, e2, e3, e4, e5, e6]

/-- Both idealized programs end with the flattened pooled blocks of the argument arrays. -/
theorem algebraic : Cert.algebraic_KernelIdeal_ReferenceIdeal := by
  intro m ρ m' ρ' _ hagree
  refine ⟨fun c => shapeCast Cert.KernelIdeal.S32x512 (Cert.KernelIdeal.KernelValue.G3 m c) Cert.KernelIdeal.Gen.shapeCasts_S32x8x64_S32x512,
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4, h5, h6⟩ := hagree c
  exact result_agrees m m' c h0 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
